-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4x256 : Shape := ⟨2, ![4, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S8192x256 .f32) (main_arg1 : FVec F S4x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S8192x256 : Shape := ⟨2, ![8192, 256]⟩
abbrev S4x256 : Shape := ⟨2, ![4, 256]⟩
abbrev S8192x1024 : Shape := ⟨2, ![8192, 1024]⟩
abbrev S1024x256 : Shape := ⟨2, ![1024, 256]⟩
abbrev S1024x1024 : Shape := ⟨2, ![1024, 1024]⟩
abbrev S1x256 : Shape := ⟨2, ![1, 256]⟩
abbrev S1024 : Shape := ⟨1, ![1024]⟩
abbrev S1024x1 : Shape := ⟨2, ![1024, 1]⟩
abbrev S8192x8192 : Shape := ⟨2, ![8192, 8192]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S4x256, .f32⟩
  | .hbm, ⟨2, _⟩ => ⟨S8192x1024, .bf16⟩
  | .hbm, ⟨3, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S4x256, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S8192x1024, .bf16⟩
  | .local _ .vmem, ⟨8, _⟩ => ⟨S512x1024, .f32⟩
  | .local _ .vmem, ⟨9, _⟩ => ⟨S512x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0_1 : Index := 0#32
  ![v4.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x256_S1024x256_0_0 : ∀ a, (![0, 0] : Fin 2 → Nat) a + S1024x256.size a ≤ S1024x256.size a
  h_S1024x256 : 0 < S1024x256.numel
  inb_S4x256_S1x256_0_0 : ∀ a, (![0, 0] : Fin 2 → Nat) a + S1x256.size a ≤ S4x256.size a
  h_S1x256 : 0 < S1x256.numel
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x1024_S1024x256_0_0 : ∀ a, (![0, 0] : Fin 2 → Nat) a + S1024x256.size a ≤ S1024x1024.size a
  packedbf16_S1024x1024_S1024x256_0_0 : (Rect.unit (s := S1024x1024) ![0, 0] S1024x256.size inb_S1024x1024_S1024x256_0_0).PackedRows (EltTy.packing .bf16)
  inb_S4x256_S1x256_1_0 : ∀ a, (![1, 0] : Fin 2 → Nat) a + S1x256.size a ≤ S4x256.size a
  inb_S1024x1024_S1024x256_0_256 : ∀ a, (![0, 256] : Fin 2 → Nat) a + S1024x256.size a ≤ S1024x1024.size a
  packedbf16_S1024x1024_S1024x256_0_256 : (Rect.unit (s := S1024x1024) ![0, 256] S1024x256.size inb_S1024x1024_S1024x256_0_256).PackedRows (EltTy.packing .bf16)
  inb_S4x256_S1x256_2_0 : ∀ a, (![2, 0] : Fin 2 → Nat) a + S1x256.size a ≤ S4x256.size a
  inb_S1024x1024_S1024x256_0_512 : ∀ a, (![0, 512] : Fin 2 → Nat) a + S1024x256.size a ≤ S1024x1024.size a
  packedbf16_S1024x1024_S1024x256_0_512 : (Rect.unit (s := S1024x1024) ![0, 512] S1024x256.size inb_S1024x1024_S1024x256_0_512).PackedRows (EltTy.packing .bf16)
  inb_S4x256_S1x256_3_0 : ∀ a, (![3, 0] : Fin 2 → Nat) a + S1x256.size a ≤ S4x256.size a
  inb_S1024x1024_S1024x256_0_768 : ∀ a, (![0, 768] : Fin 2 → Nat) a + S1024x256.size a ≤ S1024x1024.size a
  packedbf16_S1024x1024_S1024x256_0_768 : (Rect.unit (s := S1024x1024) ![0, 768] S1024x256.size inb_S1024x1024_S1024x256_0_768).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S1024x1024 : 0 < S1024x1024.numel
  shapeCasts_S1024x1024_S1024x1024 : S1024x1024.ShapeCasts S1024x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1024x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x8192.size a
  hwx1_2 : ∀ i : grid1.Coords, EltTy.bits .f32 = 32 ∨ (Rect.block (s := S8192x8192) S512x1024.size (cc1_transform_2 i) (hinb1_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S4x256 : Shape := ⟨2, ![4, 256]⟩
abbrev S4x1x256 : Shape := ⟨3, ![4, 1, 256]⟩
abbrev S1x8192x256 : Shape := ⟨3, ![1, 8192, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S8192x4x256 : Shape := ⟨3, ![8192, 4, 256]⟩
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4x256, .f32⟩
  | .hbm, ⟨2, _⟩ => ⟨S4x1x256, .f32⟩
  | .hbm, ⟨3, _⟩ => ⟨S1x8192x256, .f32⟩
  | .hbm, ⟨4, _⟩ => ⟨S4x8192x256, .f32⟩
  | .hbm, ⟨5, _⟩ => ⟨S4x8192x256, .f32⟩
  | .hbm, ⟨6, _⟩ => ⟨S4x8192x256, .f32⟩
  | .hbm, ⟨7, _⟩ => ⟨S4x8192x256, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x256, .f32⟩
  | .hbm, ⟨16, _⟩ => ⟨S4x8192x256, .f32⟩
  | .hbm, ⟨17, _⟩ => ⟨S8192x4x256, .f32⟩
  | .hbm, ⟨18, _⟩ => ⟨S8192x1024, .f32⟩
  | .hbm, ⟨19, _⟩ => ⟨S1024x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S4x256_S4x1x256_0_2 : S4x256.BroadcastsInDim S4x1x256 (![0, 2] : Fin 2 → Fin S4x1x256.rank)
  bcast_S8192x256_S1x8192x256_1_2 : S8192x256.BroadcastsInDim S1x8192x256 (![1, 2] : Fin 2 → Fin S1x8192x256.rank)
  bcast_S4x1x256_S4x8192x256_0_1_2 : S4x1x256.BroadcastsInDim S4x8192x256 (![0, 1, 2] : Fin 3 → Fin S4x8192x256.rank)
  bcast_S1x8192x256_S4x8192x256_0_1_2 : S1x8192x256.BroadcastsInDim S4x8192x256 (![0, 1, 2] : Fin 3 → Fin S4x8192x256.rank)
  reducesTo_S4x8192x256_S4x8192_d2 : S4x8192x256.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x256_0_1_2 : S4x8192x1.BroadcastsInDim S4x8192x256 (![0, 1, 2] : Fin 3 → Fin S4x8192x256.rank)
  transposes_S4x8192x256_S8192x4x256_1_0_2 : S4x8192x256.Transposes [1, 0, 2] S8192x4x256
  shapeCasts_S8192x4x256_S8192x1024 : S8192x4x256.ShapeCasts S8192x1024
  transposes_S8192x1024_S1024x8192_1_0 : S8192x1024.Transposes [1, 0] S1024x8192
  bcast_S_S8192x8192 : S_.BroadcastsInDim S8192x8192 (![] : Fin 0 → Fin S8192x8192.rank)
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.NormRegionBits.lean ====
/-
  The first kernel (one launch over 8 grid points) as a pipeline region, at any float instance and at any
  contents `V` of the device's buffers when the region is entered.

  At grid point t the body is handed rows [1024 t, 1024 t + 1024) of x (a block of [1024, 256]) and all of a
  ([4, 256]), and an output block of [1024, 1024] whose contents it does not depend on. It stores four pieces
  into the output block, one per head h: columns [256 h, 256 h + 256) receive a function of the x block and of
  row h of a alone. The four column bands tile the block, so after the body the block is exactly those four
  pieces whatever it held before (`featBlock`); the two input blocks are left as they were. Window 0 is fetched
  at every point, window 1 once (its block index never moves), the output is written back at every point.
-/
import proofs.«107795_j24223615549685_2_alg».proof.Proof.Gen.Kernel.Launch
import proofs.«107795_j24223615549685_2_alg».proof.Proof.Gen.Kernel.Skeleton
import proofs.«107795_j24223615549685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NormRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the point's block of x whenever the body runs, for any proof data whose
    array is `V`'s and whose body leaves the block in place. -/
theorem xBlock_found {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The a window's staging buffer holds all of a whenever the body runs: fetched once, its block index never moves. -/
theorem aBlock_found {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The rectangles the body reads and writes -/

/-- The whole x block. -/
abbrev rX : Rect S1024x256 := Rect.unit (s := S1024x256) ![0, 0] S1024x256.size inb_S1024x256_S1024x256_0_0
/-- Row h of a, h = 0 … 3. -/
abbrev rA0 : Rect S4x256 := Rect.unit (s := S4x256) ![0, 0] S1x256.size inb_S4x256_S1x256_0_0
abbrev rA1 : Rect S4x256 := Rect.unit (s := S4x256) ![1, 0] S1x256.size inb_S4x256_S1x256_1_0
abbrev rA2 : Rect S4x256 := Rect.unit (s := S4x256) ![2, 0] S1x256.size inb_S4x256_S1x256_2_0
abbrev rA3 : Rect S4x256 := Rect.unit (s := S4x256) ![3, 0] S1x256.size inb_S4x256_S1x256_3_0
/-- Head h's column band of the output block. -/
abbrev rO0 : Rect S1024x1024 := Rect.unit (s := S1024x1024) ![0, 0] S1024x256.size inb_S1024x1024_S1024x256_0_0
abbrev rO1 : Rect S1024x1024 := Rect.unit (s := S1024x1024) ![0, 256] S1024x256.size inb_S1024x1024_S1024x256_0_256
abbrev rO2 : Rect S1024x1024 := Rect.unit (s := S1024x1024) ![0, 512] S1024x256.size inb_S1024x1024_S1024x256_0_512
abbrev rO3 : Rect S1024x1024 := Rect.unit (s := S1024x1024) ![0, 768] S1024x256.size inb_S1024x1024_S1024x256_0_768

/-! ## What the body leaves in the output block -/

/-- The output block after the body, from the two input blocks: the four heads' pieces, the last stored first. -/
def featBlock (x0 : Vec F S1024x256 .f32) (a0 : Vec F S4x256 .f32) : Vec F S1024x1024 .bf16 :=
  View.canon [⟨rO3, k0_pay2 (View.ld x0 rX) (View.ld a0 rA3)⟩,
    ⟨rO2, k0_pay1 (k0_pay5 (View.ld x0 rX) (View.ld a0 rA2)) (k0_pay6 (View.ld x0 rX) (View.ld a0 rA2)) (Scalar.ofBits .f32 0x2B8CBCCC#32)⟩,
    ⟨rO1, k0_pay4 (View.ld x0 rX) (View.ld a0 rA1)⟩,
    ⟨rO0, k0_pay3 (View.ld x0 rX) (View.ld a0 rA0)⟩]

/-- The four column bands tile the output block, so every entry of it lies in one of them. -/
theorem bands_cover (p3 p2 p1 p0 : Vec F S1024x256 .bf16) (y : S1024x1024.Idx) :
    ∃ pc ∈ ([⟨rO3, p3⟩, ⟨rO2, p2⟩, ⟨rO1, p1⟩, ⟨rO0, p0⟩] : List (View.Piece (Elt F) S1024x1024 .bf16)), y ∈ pc.1.set :=
  View.cover_of_tiled [⟨rO3, p3⟩, ⟨rO2, p2⟩, ⟨rO1, p1⟩, ⟨rO0, p0⟩] S1024x256.size (by rfl) y

/-! ## The body -/

set_option maxHeartbeats 1000000 in
/-- The body on whole staging buffers, the inputs' at `x0` and `a0` and the output's at anything, runs to the
    continuation with the inputs' as they were and the output's at `featBlock x0 a0`. -/
theorem body_runs (c : Dev nD) (E : Set ℕ) (i : grid0.Coords) (arg1 : Memref sig .tc .vmem S1024x256 .f32) (harg1 : arg1.IsWhole)
    (arg2 : Memref sig .tc .vmem S4x256 .f32) (harg2 : arg2.IsWhole) (arg3 : Memref sig .tc .vmem S1024x1024 .bf16) (harg3 : arg3.IsWhole)
    (x0 : Vec F S1024x256 .f32) (a0 : Vec F S4x256 .f32) (K : PUnit → sProp 𝕄) :
    iprop(owns (c : Thread nD τ) arg1 fullShare x0 ∗ owns (c : Thread nD τ) arg2 fullShare a0 ∗ (∃ d, owns (c : Thread nD τ) arg3 fullShare d)
        ∗ (iprop(owns (c : Thread nD τ) arg1 fullShare x0 ∗ owns (c : Thread nD τ) arg2 fullShare a0 ∗ owns (c : Thread nD τ) arg3 fullShare (featBlock x0 a0)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (bands_cover _ _ _ _)

/-! ## The proof data -/

/-- The pipeline's proof data on core `c`: the arrays as the region finds them; after the body at point `t` each
    input's buffer at its block and the output's at `featBlock` of the two input blocks; the invariant is the scoped
    buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => featBlock (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_x (c : Dev nD) (t : Fin cfg0.N) : (dat V c).after 0 t = blockAt V c 0 t := by dsimp only [dat]
theorem after_a (c : Dev nD) (t : Fin cfg0.N) : (dat V c).after 1 t = blockAt V c 1 t := by dsimp only [dat]
theorem after_out (c : Dev nD) (t : Fin cfg0.N) : (dat V c).after 2 t = featBlock (blockAt V c 0 t) (blockAt V c 1 t) := by dsimp only [dat]

theorem before_x (c : Dev nD) (t : Fin cfg0.N) (d) : (dat V c).before 0 t d = blockAt V c 0 t :=
  xBlock_found V (dat V c) (dat_A V c 0) (after_x V c) t d
theorem before_a (c : Dev nD) (t : Fin cfg0.N) (d) : (dat V c).before 1 t d = blockAt V c 1 t :=
  aBlock_found V (dat V c) (dat_A V c 1) (after_a V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_a]
  rw [show (dat V c).Φ t.succ = (dat V c).Φ t.castSucc from rfl,
    show (dat V c).owesAt () t.succ = (dat V c).owesAt () t.castSucc from rfl,
    after_x, after_a, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact body_at_point V c t

end Cert.Kernel.NormRegion

end
-- ==== Proof.GramRegionBits.lean ====
/-
  The second kernel (one launch over a 16 × 8 grid) as a pipeline region, at any float instance and at any contents
  `V` of the device's buffers when the region is entered.

  Both input windows read ONE array, the halved feature matrix y : [8192, 1024]. At grid point (i, j) the body is
  handed rows [512 i, 512 i + 512) of y (window 0, fetched when i moves) and ALL of y (window 1, fetched once);
  it loads the tile, loads rows [1024 j, 1024 j + 1024) of the resident copy, contracts the two over their second
  axes into a zero accumulator and stores the [512, 1024] result over the whole output block (`gramBlock`),
  which is written back at every point. The input blocks are left as they were. Since two windows share the
  array, each holds it at half the full share; the output array is held outright.
-/
import proofs.«107795_j24223615549685_2_alg».proof.Proof.Gen.Kernel.Launch
import proofs.«107795_j24223615549685_2_alg».proof.Proof.Gen.Kernel.Skeleton
import proofs.«107795_j24223615549685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GramRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds the point's tile whenever the body runs, fetched there or not. -/
theorem tile_found {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The resident window's staging buffer holds all of y whenever the body runs: fetched once, its index never moves. -/
theorem resident_found {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The rectangles the body reads and writes -/

/-- The whole row tile, and the whole output block (one shape). -/
abbrev rTile : Rect S512x1024 := Rect.unit (s := S512x1024) ![0, 0] S512x1024.size inb_S512x1024_S512x1024_0_0
/-- Rows [1024 j, 1024 j + 1024) of the resident copy, j the point's second coordinate. -/
abbrev rSlab (i : grid1.Coords) : Rect S8192x1024 := Rect.unit (s := S8192x1024) (k1_off1 i) S1024x1024.size (k1_off1_inb i)

/-! ## What the body leaves in the output block -/

/-- The output block after the body at the point of coordinates `i`, from the two input blocks: one piece, the whole block. -/
def gramBlock (i : grid1.Coords) (y0 : Vec F S512x1024 .bf16) (y1 : Vec F S8192x1024 .bf16) : Vec F S512x1024 .f32 :=
  View.canon [⟨rTile, k1_pay1 (View.ld y0 rTile) (View.ld y1 (rSlab i))⟩]

theorem block_cover (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

/-! ## The body -/

set_option maxHeartbeats 1000000 in
/-- The body on whole staging buffers, the inputs' at `y0` and `y1` and the output's at anything, runs to the
    continuation with the inputs' as they were and the output's at `gramBlock i y0 y1`. -/
theorem body_runs (c : Dev nD) (E : Set ℕ) (i : grid1.Coords) (arg2 : Memref sig .tc .vmem S512x1024 .bf16) (harg2 : arg2.IsWhole)
    (arg3 : Memref sig .tc .vmem S8192x1024 .bf16) (harg3 : arg3.IsWhole) (arg4 : Memref sig .tc .vmem S512x1024 .f32) (harg4 : arg4.IsWhole)
    (y0 : Vec F S512x1024 .bf16) (y1 : Vec F S8192x1024 .bf16) (K : PUnit → sProp 𝕄) :
    iprop(owns (c : Thread nD τ) arg2 fullShare y0 ∗ owns (c : Thread nD τ) arg3 fullShare y1 ∗ (∃ d, owns (c : Thread nD τ) arg4 fullShare d)
        ∗ (iprop(owns (c : Thread nD τ) arg2 fullShare y0 ∗ owns (c : Thread nD τ) arg3 fullShare y1 ∗ owns (c : Thread nD τ) arg4 fullShare (gramBlock i y0 y1)) -∗ K ⟨⟩))
      ⊢ wp frame (wpE (defs₀ (F := F)) Variants.none c none) E (cc1__mm_kernel i arg2 harg2 arg3 harg3 arg4 harg4) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (block_cover _)

/-! ## The proof data -/

/-- The pipeline's proof data on core `c`: the arrays as the region finds them; after the body at point `t` each
    input's buffer at its block and the output's at `gramBlock`; the invariant is the scoped buffers no window
    stages and the generator register, untouched; nothing owed; the shared input array dealt in halves. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => gramBlock (grid1.coords t) (blockAt V c 0 t) (blockAt V c 1 t)
  Φ _ := Pipeline.ΦA spec1 c
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by
  dsimp only [dat]
theorem after_tile (c : Dev nD) (t : Fin cfg1.N) : (dat V c).after 0 t = blockAt V c 0 t := by dsimp only [dat]
theorem after_resident (c : Dev nD) (t : Fin cfg1.N) : (dat V c).after 1 t = blockAt V c 1 t := by dsimp only [dat]
theorem after_out (c : Dev nD) (t : Fin cfg1.N) :
    (dat V c).after 2 t = gramBlock (grid1.coords t) (blockAt V c 0 t) (blockAt V c 1 t) := by dsimp only [dat]

theorem before_tile (c : Dev nD) (t : Fin cfg1.N) (d) : (dat V c).before 0 t d = blockAt V c 0 t :=
  tile_found V (dat V c) (dat_A V c 0) (after_tile V c) t d
theorem before_resident (c : Dev nD) (t : Fin cfg1.N) (d) : (dat V c).before 1 t d = blockAt V c 1 t :=
  resident_found V (dat V c) (dat_A V c 1) (after_resident V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem body_at_point (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_tile, before_resident]
  rw [show (dat V c).Φ t.succ = (dat V c).Φ t.castSucc from rfl,
    show (dat V c).owesAt () t.succ = (dat V c).owesAt () t.castSucc from rfl,
    after_tile, after_resident, after_out]
  iintro ⟨HΦ, Ho, ⟨%d0, H0⟩, ⟨%d1, H1⟩, ⟨%d2, H2⟩⟩
  iapply (body_runs c Set.univ (grid1.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact body_at_point V c t

end Cert.Kernel.GramRegion

end
-- ==== Proof.TwoRegionsBits.lean ====
/-
  The whole program as two pipeline regions run one after the other, at any float instance: from any launch memory
  every weakly fair execution terminates without a fault, the two argument arrays end as launched, and the result
  array ends at `gramArr` — what the second region's write-backs leave, computed from what the first region's
  write-backs left in the intermediate array (`featArr`), itself computed from the arguments as launched.

  Between the regions a TensorCore holds its four unscoped arrays whole: the arguments, the intermediate feature
  matrix and the result. The first region takes the two arguments and the intermediate array as its windows'
  arrays (three distinct arrays, each at the full share) and hands back the intermediate array rewritten. The
  second region reads the intermediate array through TWO windows: on entry its full share is dealt in two halves,
  one per window, and on exit the halves — both still at the entry contents, an input array is never written —
  are joined again; its third window's array, the result, is held outright and comes back rewritten.
-/
import proofs.«107795_j24223615549685_2_alg».proof.Proof.NormRegionBits
import proofs.«107795_j24223615549685_2_alg».proof.Proof.GramRegionBits
import proofs.«107795_j24223615549685_2_alg».proof.Proof.Gen.Kernel.Regions

set_option maxRecDepth 16384

noncomputable section

namespace Cert.Kernel.TwoRegions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the first region: its three arrays at what the pipeline leaves (the two arguments as entered, the
    intermediate array with every write-back folded in), the result array as launched. -/
def W1 (c : Dev nD) : Valuation τ sig (Elt F) :=
  Pipeline.withArrays spec0 c (W0 m c) fun w => (NormRegion.dat (V0 m) c).arrAt w cfg0.N
theorem W1_arr (c : Dev nD) (w : Fin cfg0.W) :
    W1 m c (Proc.devRef .tc (Pipeline.arrRef spec0 w)) = (NormRegion.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem V1_arr (c : Dev nD) (w : Fin cfg0.W) : (NormRegion.dat (V0 m) c).arrAt w cfg0.N = V1 m c (Pipeline.arrRef spec0 w) :=
  (W1_arr m c w).symm
theorem V1_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- What the second region's write-backs leave in the result array, from the contents the first region left. -/
def gramArr (c : Dev nD) : Buf (Elt F) ((c : Thread nD τ).loc main_v1) :=
  (GramRegion.dat (V1 m) c).arrAt 2 cfg1.N

/-- After the second region: the result array rewritten, everything else as the first region left it. -/
def W2 (c : Dev nD) : Valuation τ sig (Elt F) := Function.update (W1 m c) main_v1 (gramArr m c)
theorem W2_result (c : Dev nD) : W2 m c main_v1 = gramArr m c := Function.update_self ..
theorem W2_of_ne (c : Dev nD) (r : Ref sig .tc) (h : r ≠ main_v1) : W2 m c r = W1 m c r := by
  unfold W2
  exact Function.update_of_ne (StableHlo.devRef_ne_of_ne h : (Proc.devRef .tc r : DevRef τ sig) ≠ Proc.devRef .tc main_v1) ..

/-- The arguments reach the end as launched: each is an input array of the first region and no array of the second. -/
theorem W2_main_arg0 (c : Dev nD) : W2 m c main_arg0 = m ((c : Thread nD τ).loc main_arg0) :=
  (W2_of_ne m c main_arg0 (by decide)).trans <|
    (W1_arr m c 0).trans (((NormRegion.dat (V0 m) c).arrAt_in 0 rfl _).trans (NormRegion.dat_A (V0 m) c 0))
theorem W2_main_arg1 (c : Dev nD) : W2 m c main_arg1 = m ((c : Thread nD τ).loc main_arg1) :=
  (W2_of_ne m c main_arg1 (by decide)).trans <|
    (W1_arr m c 1).trans (((NormRegion.dat (V0 m) c).arrAt_in 1 rfl _).trans (NormRegion.dat_A (V0 m) c 1))

/-! ## The proof data, and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => NormRegion.dat (V0 m) c
  | ⟨1, _⟩ => fun c => GramRegion.dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its debts, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the debts. -/
abbrev Tₙ (c : Dev nD) : sProp 𝕄 := iprop(StableHlo.held (c : Thread nD τ) (Pipeline.ucRefs τ sig) (W2 m c) ∗ ∃ r, prngReg c r)

/-! ## The first region as a segment -/

set_option backward.isDefEq.respectTransparency.types false in
/-- Entered with every unscoped buffer at the launch contents, left with them at `W1`: its three arrays are split
    out of the unscoped buffers on entry and put back at their final contents on exit; the generator register goes
    into the invariant and comes back; nothing is owed; the kernel has no semaphore of its own. -/
def normSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (NormRegion.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (V1_arr m c) (V1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- A core's four unscoped buffers, one by one. -/
theorem unscoped_four (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold unscopedBufs
  exact bigSep_eq_bigSepL_of_eq [main_arg0, main_arg1, main_v0, main_v1] (by decide) (by decide) _

/-- The second pipeline's arrays, one by one: the intermediate array twice, at the two halves of the full share, and
    the result array outright. -/
theorem gram_arrays (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((GramRegion.dat V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W1, (arr_whole1 0).set_eq_univ, (arr_whole1 2).set_eq_univ]
  rfl

/-- The unscoped buffers at the last boundary, one by one: the arguments and the intermediate array as the first region
    left them, the result array at what the second region leaves. -/
theorem held_W2 (c : Dev nD) :
    (StableHlo.held (c : Thread nD τ) (Pipeline.ucRefs τ sig) (W2 m c) : sProp 𝕄)
      = iprop((((c : Thread nD τ).loc main_arg0) ↦{fullShare} V1 m c main_arg0) ∗ (((c : Thread nD τ).loc main_arg1) ↦{fullShare} V1 m c main_arg1)
          ∗ (((c : Thread nD τ).loc main_v0) ↦{fullShare} V1 m c main_v0) ∗ (((c : Thread nD τ).loc main_v1) ↦{fullShare} gramArr m c)) := by
  rw [← Pipeline.unscopedBufs_held (Ix := Unit) (Name := ℕ) (U := UR sig nD τ) (Lvl := ℕ) c (W2 m c), unscoped_four,
    W2_of_ne m c main_arg0 (by decide), W2_of_ne m c main_arg1 (by decide), W2_of_ne m c main_v0 (by decide), W2_result]

set_option backward.isDefEq.respectTransparency.types false in
/-- Entered with every unscoped buffer at `W1`, left with them at `W2`. On entry the intermediate array's full share
    is dealt in halves to the two windows that read it; on exit the halves, both still at the entry contents, are
    joined. The two argument arrays are no array of this region and pass beside it. -/
def gramSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (GramRegion.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := iprop((((c : Thread nD τ).loc main_arg0) ↦{fullShare} V1 m c main_arg0) ∗ (((c : Thread nD τ).loc main_arg1) ↦{fullShare} V1 m c main_arg1))
  hentry c := by
    rw [Pipeline.ownSems0_none, ← Pipeline.unscopedBufs_held (Ix := Unit) (Name := ℕ) (U := UR sig nD τ) (Lvl := ℕ) c (W1 m c),
      unscoped_four, show (pdats m 1 c) = GramRegion.dat (V1 m) c from rfl, gram_arrays]
    iintro ⟨⟨⟨Ha0, Ha1, Hv0, Hv1⟩, Hp, HO⟩, -, -⟩
    ihave Hs := (pointsTo_share (PosShare.mem_left_op_right fullShare)).1 $$ Hv0
    icases Hs with ⟨Hl, Hr⟩
    imodintro
    isplitl [Hl Hr Hv1]
    · isplitl [Hl]; · iexact Hl
      isplitl [Hr]; · iexact Hr
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    iexact Ha1
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show (pdats m 1 c) = GramRegion.dat (V1 m) c from rfl, gram_arrays,
      (GramRegion.dat (V1 m) c).arrAt_in 0 rfl, (GramRegion.dat (V1 m) c).arrAt_in 1 rfl, GramRegion.dat_A, GramRegion.dat_A]
    show _ ⊢ |={Set.univ}=> iprop((StableHlo.held (c : Thread nD τ) (Pipeline.ucRefs τ sig) (W2 m c) ∗ ∃ r, prngReg c r)
      ∗ ∃ W, owes (c : Thread nD τ) (0 : CellTallies nD τ sig Unit) W)
    rw [held_W2]
    iintro ⟨⟨Hl, Hr, Hv1⟩, HO, HY, ⟨Ha0, Ha1⟩⟩
    ihave Hv0 := (pointsTo_share (PosShare.mem_left_op_right fullShare)).2 $$ [Hl Hr]
    · isplitl [Hl] <;> iassumption
    imodintro
    isplitl [Ha0 Ha1 Hv0 Hv1 HY]
    · isplitl [Ha0 Ha1 Hv0 Hv1]
      · isplitl [Ha0]; · iexact Ha0
        isplitl [Ha1]; · iexact Ha1
        isplitl [Hv0]; · iexact Hv0
        iexact Hv1
      iexact HY
    unfold Pipeline.Dat.owesAt Pipeline.owesWithin
    icases HO with ⟨%W, -, HO⟩; iexists W; iexact HO

/-! ## The program as the two segments, and the launch -/

abbrev segs : List (Pipeline.Seg (pcfgs (F := F)) adm (pdats m) () defs₀ 𝒱₀ L lv) :=
  [.region (normSeg m), .region (gramSeg m)]

set_option backward.isDefEq.respectTransparency.types false in
/-- From any launch memory with zero counters every weakly fair execution terminates, nothing faulting; the result
    array ends at `gramArr` and the two arguments as launched. -/
theorem run : θ_run defs (onTc (τ := τ) (main (F := F))) ⟨m, fun _ => 0, ρ⟩ (fun r => ∀ c : Dev nD,
      r.2.mem ((c.tc : Thread nD τ).loc main_v1) = gramArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_segs adm (pdats m) () 𝒱₀ L lv (normSeg m) (gramSeg m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
        (h c _ (mem_uc main_arg0 (by decide))).trans (W2_main_arg0 m c),
        (h c _ (mem_uc main_arg1 (by decide))).trans (W2_main_arg1 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.TwoRegions

end
-- ==== Proof.NormRegionIdeal.lean ====
/-
  The first kernel (one launch over 8 grid points) as a pipeline region, at any float instance and at any
  contents `V` of the device's buffers when the region is entered.

  At grid point t the body is handed rows [1024 t, 1024 t + 1024) of x (a block of [1024, 256]) and all of a
  ([4, 256]), and an output block of [1024, 1024] whose contents it does not depend on. It stores four pieces
  into the output block, one per head h: columns [256 h, 256 h + 256) receive a function of the x block and of
  row h of a alone. The four column bands tile the block, so after the body the block is exactly those four
  pieces whatever it held before (`featBlock`); the two input blocks are left as they were. Window 0 is fetched
  at every point, window 1 once (its block index never moves), the output is written back at every point.
-/
import proofs.«107795_j24223615549685_2_alg».proof.Proof.Gen.KernelIdeal.Launch
import proofs.«107795_j24223615549685_2_alg».proof.Proof.Gen.KernelIdeal.Skeleton
import proofs.«107795_j24223615549685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NormRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the point's block of x whenever the body runs, for any proof data whose
    array is `V`'s and whose body leaves the block in place. -/
theorem xBlock_found {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The a window's staging buffer holds all of a whenever the body runs: fetched once, its block index never moves. -/
theorem aBlock_found {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The rectangles the body reads and writes -/

/-- The whole x block. -/
abbrev rX : Rect S1024x256 := Rect.unit (s := S1024x256) ![0, 0] S1024x256.size inb_S1024x256_S1024x256_0_0
/-- Row h of a, h = 0 … 3. -/
abbrev rA0 : Rect S4x256 := Rect.unit (s := S4x256) ![0, 0] S1x256.size inb_S4x256_S1x256_0_0
abbrev rA1 : Rect S4x256 := Rect.unit (s := S4x256) ![1, 0] S1x256.size inb_S4x256_S1x256_1_0
abbrev rA2 : Rect S4x256 := Rect.unit (s := S4x256) ![2, 0] S1x256.size inb_S4x256_S1x256_2_0
abbrev rA3 : Rect S4x256 := Rect.unit (s := S4x256) ![3, 0] S1x256.size inb_S4x256_S1x256_3_0
/-- Head h's column band of the output block. -/
abbrev rO0 : Rect S1024x1024 := Rect.unit (s := S1024x1024) ![0, 0] S1024x256.size inb_S1024x1024_S1024x256_0_0
abbrev rO1 : Rect S1024x1024 := Rect.unit (s := S1024x1024) ![0, 256] S1024x256.size inb_S1024x1024_S1024x256_0_256
abbrev rO2 : Rect S1024x1024 := Rect.unit (s := S1024x1024) ![0, 512] S1024x256.size inb_S1024x1024_S1024x256_0_512
abbrev rO3 : Rect S1024x1024 := Rect.unit (s := S1024x1024) ![0, 768] S1024x256.size inb_S1024x1024_S1024x256_0_768

/-! ## What the body leaves in the output block -/

/-- The output block after the body, from the two input blocks: the four heads' pieces, the last stored first. -/
def featBlock (x0 : Vec F S1024x256 .f32) (a0 : Vec F S4x256 .f32) : Vec F S1024x1024 .bf16 :=
  View.canon [⟨rO3, k0_pay2 (View.ld x0 rX) (View.ld a0 rA3)⟩,
    ⟨rO2, k0_pay1 (k0_pay5 (View.ld x0 rX) (View.ld a0 rA2)) (k0_pay6 (View.ld x0 rX) (View.ld a0 rA2)) (Scalar.ofBits .f32 0x2B8CBCCC#32)⟩,
    ⟨rO1, k0_pay4 (View.ld x0 rX) (View.ld a0 rA1)⟩,
    ⟨rO0, k0_pay3 (View.ld x0 rX) (View.ld a0 rA0)⟩]

/-- The four column bands tile the output block, so every entry of it lies in one of them. -/
theorem bands_cover (p3 p2 p1 p0 : Vec F S1024x256 .bf16) (y : S1024x1024.Idx) :
    ∃ pc ∈ ([⟨rO3, p3⟩, ⟨rO2, p2⟩, ⟨rO1, p1⟩, ⟨rO0, p0⟩] : List (View.Piece (Elt F) S1024x1024 .bf16)), y ∈ pc.1.set :=
  View.cover_of_tiled [⟨rO3, p3⟩, ⟨rO2, p2⟩, ⟨rO1, p1⟩, ⟨rO0, p0⟩] S1024x256.size (by rfl) y

/-! ## The body -/

set_option maxHeartbeats 1000000 in
/-- The body on whole staging buffers, the inputs' at `x0` and `a0` and the output's at anything, runs to the
    continuation with the inputs' as they were and the output's at `featBlock x0 a0`. -/
theorem body_runs (c : Dev nD) (E : Set ℕ) (i : grid0.Coords) (arg1 : Memref sig .tc .vmem S1024x256 .f32) (harg1 : arg1.IsWhole)
    (arg2 : Memref sig .tc .vmem S4x256 .f32) (harg2 : arg2.IsWhole) (arg3 : Memref sig .tc .vmem S1024x1024 .bf16) (harg3 : arg3.IsWhole)
    (x0 : Vec F S1024x256 .f32) (a0 : Vec F S4x256 .f32) (K : PUnit → sProp 𝕄) :
    iprop(owns (c : Thread nD τ) arg1 fullShare x0 ∗ owns (c : Thread nD τ) arg2 fullShare a0 ∗ (∃ d, owns (c : Thread nD τ) arg3 fullShare d)
        ∗ (iprop(owns (c : Thread nD τ) arg1 fullShare x0 ∗ owns (c : Thread nD τ) arg2 fullShare a0 ∗ owns (c : Thread nD τ) arg3 fullShare (featBlock x0 a0)) -∗ K ⟨⟩))
      ⊢ wp frame (wpE (defs₀ (F := F)) Variants.none c none) E (cc0__norm_kernel i arg1 harg1 arg2 harg2 arg3 harg3) K := by
  simp only [cc0__norm_kernel_eq_skeleton]; unfold cc0__norm_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (bands_cover _ _ _ _)

/-! ## The proof data -/

/-- The pipeline's proof data on core `c`: the arrays as the region finds them; after the body at point `t` each
    input's buffer at its block and the output's at `featBlock` of the two input blocks; the invariant is the scoped
    buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => featBlock (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_x (c : Dev nD) (t : Fin cfg0.N) : (dat V c).after 0 t = blockAt V c 0 t := by dsimp only [dat]
theorem after_a (c : Dev nD) (t : Fin cfg0.N) : (dat V c).after 1 t = blockAt V c 1 t := by dsimp only [dat]
theorem after_out (c : Dev nD) (t : Fin cfg0.N) : (dat V c).after 2 t = featBlock (blockAt V c 0 t) (blockAt V c 1 t) := by dsimp only [dat]

theorem before_x (c : Dev nD) (t : Fin cfg0.N) (d) : (dat V c).before 0 t d = blockAt V c 0 t :=
  xBlock_found V (dat V c) (dat_A V c 0) (after_x V c) t d
theorem before_a (c : Dev nD) (t : Fin cfg0.N) (d) : (dat V c).before 1 t d = blockAt V c 1 t :=
  aBlock_found V (dat V c) (dat_A V c 1) (after_a V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_a]
  rw [show (dat V c).Φ t.succ = (dat V c).Φ t.castSucc from rfl,
    show (dat V c).owesAt () t.succ = (dat V c).owesAt () t.castSucc from rfl,
    after_x, after_a, after_out]
  iintro ⟨HΦ, Ho, ⟨%d0, H0⟩, ⟨%d1, H1⟩, ⟨%d2, H2⟩⟩
  iapply (body_runs c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact body_at_point V c t

end Cert.KernelIdeal.NormRegion

end
-- ==== Proof.GramRegionIdeal.lean ====
/-
  The second kernel (one launch over a 16 × 8 grid) as a pipeline region, at any float instance and at any contents
  `V` of the device's buffers when the region is entered.

  Both input windows read ONE array, the halved feature matrix y : [8192, 1024]. At grid point (i, j) the body is
  handed rows [512 i, 512 i + 512) of y (window 0, fetched when i moves) and ALL of y (window 1, fetched once);
  it loads the tile, loads rows [1024 j, 1024 j + 1024) of the resident copy, contracts the two over their second
  axes into a zero accumulator and stores the [512, 1024] result over the whole output block (`gramBlock`),
  which is written back at every point. The input blocks are left as they were. Since two windows share the
  array, each holds it at half the full share; the output array is held outright.
-/
import proofs.«107795_j24223615549685_2_alg».proof.Proof.Gen.KernelIdeal.Launch
import proofs.«107795_j24223615549685_2_alg».proof.Proof.Gen.KernelIdeal.Skeleton
import proofs.«107795_j24223615549685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GramRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window `w`'s block at grid point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window's staging buffer holds the point's tile whenever the body runs, fetched there or not. -/
theorem tile_found {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The resident window's staging buffer holds all of y whenever the body runs: fetched once, its index never moves. -/
theorem resident_found {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The rectangles the body reads and writes -/

/-- The whole row tile, and the whole output block (one shape). -/
abbrev rTile : Rect S512x1024 := Rect.unit (s := S512x1024) ![0, 0] S512x1024.size inb_S512x1024_S512x1024_0_0
/-- Rows [1024 j, 1024 j + 1024) of the resident copy, j the point's second coordinate. -/
abbrev rSlab (i : grid1.Coords) : Rect S8192x1024 := Rect.unit (s := S8192x1024) (k1_off1 i) S1024x1024.size (k1_off1_inb i)

/-! ## What the body leaves in the output block -/

/-- The output block after the body at the point of coordinates `i`, from the two input blocks: one piece, the whole block. -/
def gramBlock (i : grid1.Coords) (y0 : Vec F S512x1024 .bf16) (y1 : Vec F S8192x1024 .bf16) : Vec F S512x1024 .f32 :=
  View.canon [⟨rTile, k1_pay1 (View.ld y0 rTile) (View.ld y1 (rSlab i))⟩]

theorem block_cover (p0 : Vec F S512x1024 .f32) (y : S512x1024.Idx) :
    ∃ pc ∈ ([⟨rTile, p0⟩] : List (View.Piece (Elt F) S512x1024 .f32)), y ∈ pc.1.set :=
  View.cover_of_tiled [⟨rTile, p0⟩] S512x1024.size (by rfl) y

/-! ## The body -/

set_option maxHeartbeats 1000000 in
/-- The body on whole staging buffers, the inputs' at `y0` and `y1` and the output's at anything, runs to the
    continuation with the inputs' as they were and the output's at `gramBlock i y0 y1`. -/
theorem body_runs (c : Dev nD) (E : Set ℕ) (i : grid1.Coords) (arg2 : Memref sig .tc .vmem S512x1024 .bf16) (harg2 : arg2.IsWhole)
    (arg3 : Memref sig .tc .vmem S8192x1024 .bf16) (harg3 : arg3.IsWhole) (arg4 : Memref sig .tc .vmem S512x1024 .f32) (harg4 : arg4.IsWhole)
    (y0 : Vec F S512x1024 .bf16) (y1 : Vec F S8192x1024 .bf16) (K : PUnit → sProp 𝕄) :
    iprop(owns (c : Thread nD τ) arg2 fullShare y0 ∗ owns (c : Thread nD τ) arg3 fullShare y1 ∗ (∃ d, owns (c : Thread nD τ) arg4 fullShare d)
        ∗ (iprop(owns (c : Thread nD τ) arg2 fullShare y0 ∗ owns (c : Thread nD τ) arg3 fullShare y1 ∗ owns (c : Thread nD τ) arg4 fullShare (gramBlock i y0 y1)) -∗ K ⟨⟩))
      ⊢ wp frame (wpE (defs₀ (F := F)) Variants.none c none) E (cc1__mm_kernel i arg2 harg2 arg3 harg3 arg4 harg4) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (block_cover _)

/-! ## The proof data -/

/-- The pipeline's proof data on core `c`: the arrays as the region finds them; after the body at point `t` each
    input's buffer at its block and the output's at `gramBlock`; the invariant is the scoped buffers no window
    stages and the generator register, untouched; nothing owed; the shared input array dealt in halves. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => gramBlock (grid1.coords t) (blockAt V c 0 t) (blockAt V c 1 t)
  Φ _ := Pipeline.ΦA spec1 c
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by
  dsimp only [dat]
theorem after_tile (c : Dev nD) (t : Fin cfg1.N) : (dat V c).after 0 t = blockAt V c 0 t := by dsimp only [dat]
theorem after_resident (c : Dev nD) (t : Fin cfg1.N) : (dat V c).after 1 t = blockAt V c 1 t := by dsimp only [dat]
theorem after_out (c : Dev nD) (t : Fin cfg1.N) :
    (dat V c).after 2 t = gramBlock (grid1.coords t) (blockAt V c 0 t) (blockAt V c 1 t) := by dsimp only [dat]

theorem before_tile (c : Dev nD) (t : Fin cfg1.N) (d) : (dat V c).before 0 t d = blockAt V c 0 t :=
  tile_found V (dat V c) (dat_A V c 0) (after_tile V c) t d
theorem before_resident (c : Dev nD) (t : Fin cfg1.N) (d) : (dat V c).before 1 t d = blockAt V c 1 t :=
  resident_found V (dat V c) (dat_A V c 1) (after_resident V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem body_at_point (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_tile, before_resident]
  rw [show (dat V c).Φ t.succ = (dat V c).Φ t.castSucc from rfl,
    show (dat V c).owesAt () t.succ = (dat V c).owesAt () t.castSucc from rfl,
    after_tile, after_resident, after_out]
  iintro ⟨HΦ, Ho, ⟨%d0, H0⟩, ⟨%d1, H1⟩, ⟨%d2, H2⟩⟩
  iapply (body_runs c Set.univ (grid1.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact body_at_point V c t

end Cert.KernelIdeal.GramRegion

end
-- ==== Proof.TwoRegionsIdeal.lean ====
/-
  The whole program as two pipeline regions run one after the other, at any float instance: from any launch memory
  every weakly fair execution terminates without a fault, the two argument arrays end as launched, and the result
  array ends at `gramArr` — what the second region's write-backs leave, computed from what the first region's
  write-backs left in the intermediate array (`featArr`), itself computed from the arguments as launched.

  Between the regions a TensorCore holds its four unscoped arrays whole: the arguments, the intermediate feature
  matrix and the result. The first region takes the two arguments and the intermediate array as its windows'
  arrays (three distinct arrays, each at the full share) and hands back the intermediate array rewritten. The
  second region reads the intermediate array through TWO windows: on entry its full share is dealt in two halves,
  one per window, and on exit the halves — both still at the entry contents, an input array is never written —
  are joined again; its third window's array, the result, is held outright and comes back rewritten.
-/
import proofs.«107795_j24223615549685_2_alg».proof.Proof.NormRegionIdeal
import proofs.«107795_j24223615549685_2_alg».proof.Proof.GramRegionIdeal
import proofs.«107795_j24223615549685_2_alg».proof.Proof.Gen.KernelIdeal.Regions

set_option maxRecDepth 16384

noncomputable section

namespace Cert.KernelIdeal.TwoRegions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the first region: its three arrays at what the pipeline leaves (the two arguments as entered, the
    intermediate array with every write-back folded in), the result array as launched. -/
def W1 (c : Dev nD) : Valuation τ sig (Elt F) :=
  Pipeline.withArrays spec0 c (W0 m c) fun w => (NormRegion.dat (V0 m) c).arrAt w cfg0.N
theorem W1_arr (c : Dev nD) (w : Fin cfg0.W) :
    W1 m c (Proc.devRef .tc (Pipeline.arrRef spec0 w)) = (NormRegion.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem V1_arr (c : Dev nD) (w : Fin cfg0.W) : (NormRegion.dat (V0 m) c).arrAt w cfg0.N = V1 m c (Pipeline.arrRef spec0 w) :=
  (W1_arr m c w).symm
theorem V1_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- What the second region's write-backs leave in the result array, from the contents the first region left. -/
def gramArr (c : Dev nD) : Buf (Elt F) ((c : Thread nD τ).loc main_v1) :=
  (GramRegion.dat (V1 m) c).arrAt 2 cfg1.N

/-- After the second region: the result array rewritten, everything else as the first region left it. -/
def W2 (c : Dev nD) : Valuation τ sig (Elt F) := Function.update (W1 m c) main_v1 (gramArr m c)
theorem W2_result (c : Dev nD) : W2 m c main_v1 = gramArr m c := Function.update_self ..
theorem W2_of_ne (c : Dev nD) (r : Ref sig .tc) (h : r ≠ main_v1) : W2 m c r = W1 m c r := by
  unfold W2
  exact Function.update_of_ne (StableHlo.devRef_ne_of_ne h : (Proc.devRef .tc r : DevRef τ sig) ≠ Proc.devRef .tc main_v1) ..

/-- The arguments reach the end as launched: each is an input array of the first region and no array of the second. -/
theorem W2_main_arg0 (c : Dev nD) : W2 m c main_arg0 = m ((c : Thread nD τ).loc main_arg0) :=
  (W2_of_ne m c main_arg0 (by decide)).trans <|
    (W1_arr m c 0).trans (((NormRegion.dat (V0 m) c).arrAt_in 0 rfl _).trans (NormRegion.dat_A (V0 m) c 0))
theorem W2_main_arg1 (c : Dev nD) : W2 m c main_arg1 = m ((c : Thread nD τ).loc main_arg1) :=
  (W2_of_ne m c main_arg1 (by decide)).trans <|
    (W1_arr m c 1).trans (((NormRegion.dat (V0 m) c).arrAt_in 1 rfl _).trans (NormRegion.dat_A (V0 m) c 1))

/-! ## The proof data, and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => NormRegion.dat (V0 m) c
  | ⟨1, _⟩ => fun c => GramRegion.dat (V1 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and its debts, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the debts. -/
abbrev Tₙ (c : Dev nD) : sProp 𝕄 := iprop(StableHlo.held (c : Thread nD τ) (Pipeline.ucRefs τ sig) (W2 m c) ∗ ∃ r, prngReg c r)

/-! ## The first region as a segment -/

set_option backward.isDefEq.respectTransparency.types false in
/-- Entered with every unscoped buffer at the launch contents, left with them at `W1`: its three arrays are split
    out of the unscoped buffers on entry and put back at their final contents on exit; the generator register goes
    into the invariant and comes back; nothing is owed; the kernel has no semaphore of its own. -/
def normSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (NormRegion.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (V1_arr m c) (V1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- A core's four unscoped buffers, one by one. -/
theorem unscoped_four (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold unscopedBufs
  exact bigSep_eq_bigSepL_of_eq [main_arg0, main_arg1, main_v0, main_v1] (by decide) (by decide) _

/-- The second pipeline's arrays, one by one: the intermediate array twice, at the two halves of the full share, and
    the result array outright. -/
theorem gram_arrays (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((GramRegion.dat V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W1, (arr_whole1 0).set_eq_univ, (arr_whole1 2).set_eq_univ]
  rfl

/-- The unscoped buffers at the last boundary, one by one: the arguments and the intermediate array as the first region
    left them, the result array at what the second region leaves. -/
theorem held_W2 (c : Dev nD) :
    (StableHlo.held (c : Thread nD τ) (Pipeline.ucRefs τ sig) (W2 m c) : sProp 𝕄)
      = iprop((((c : Thread nD τ).loc main_arg0) ↦{fullShare} V1 m c main_arg0) ∗ (((c : Thread nD τ).loc main_arg1) ↦{fullShare} V1 m c main_arg1)
          ∗ (((c : Thread nD τ).loc main_v0) ↦{fullShare} V1 m c main_v0) ∗ (((c : Thread nD τ).loc main_v1) ↦{fullShare} gramArr m c)) := by
  rw [← Pipeline.unscopedBufs_held (Ix := Unit) (Name := ℕ) (U := UR sig nD τ) (Lvl := ℕ) c (W2 m c), unscoped_four,
    W2_of_ne m c main_arg0 (by decide), W2_of_ne m c main_arg1 (by decide), W2_of_ne m c main_v0 (by decide), W2_result]

set_option backward.isDefEq.respectTransparency.types false in
/-- Entered with every unscoped buffer at `W1`, left with them at `W2`. On entry the intermediate array's full share
    is dealt in halves to the two windows that read it; on exit the halves, both still at the entry contents, are
    joined. The two argument arrays are no array of this region and pass beside it. -/
def gramSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (GramRegion.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := iprop((((c : Thread nD τ).loc main_arg0) ↦{fullShare} V1 m c main_arg0) ∗ (((c : Thread nD τ).loc main_arg1) ↦{fullShare} V1 m c main_arg1))
  hentry c := by
    rw [Pipeline.ownSems0_none, ← Pipeline.unscopedBufs_held (Ix := Unit) (Name := ℕ) (U := UR sig nD τ) (Lvl := ℕ) c (W1 m c),
      unscoped_four, show (pdats m 1 c) = GramRegion.dat (V1 m) c from rfl, gram_arrays]
    iintro ⟨⟨⟨Ha0, Ha1, Hv0, Hv1⟩, Hp, HO⟩, -, -⟩
    ihave Hs := (pointsTo_share (PosShare.mem_left_op_right fullShare)).1 $$ Hv0
    icases Hs with ⟨Hl, Hr⟩
    imodintro
    isplitl [Hl Hr Hv1]
    · isplitl [Hl]; · iexact Hl
      isplitl [Hr]; · iexact Hr
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    iexact Ha1
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show (pdats m 1 c) = GramRegion.dat (V1 m) c from rfl, gram_arrays,
      (GramRegion.dat (V1 m) c).arrAt_in 0 rfl, (GramRegion.dat (V1 m) c).arrAt_in 1 rfl, GramRegion.dat_A, GramRegion.dat_A]
    show _ ⊢ |={Set.univ}=> iprop((StableHlo.held (c : Thread nD τ) (Pipeline.ucRefs τ sig) (W2 m c) ∗ ∃ r, prngReg c r)
      ∗ ∃ W, owes (c : Thread nD τ) (0 : CellTallies nD τ sig Unit) W)
    rw [held_W2]
    iintro ⟨⟨Hl, Hr, Hv1⟩, HO, HY, ⟨Ha0, Ha1⟩⟩
    ihave Hv0 := (pointsTo_share (PosShare.mem_left_op_right fullShare)).2 $$ [Hl Hr]
    · isplitl [Hl] <;> iassumption
    imodintro
    isplitl [Ha0 Ha1 Hv0 Hv1 HY]
    · isplitl [Ha0 Ha1 Hv0 Hv1]
      · isplitl [Ha0]; · iexact Ha0
        isplitl [Ha1]; · iexact Ha1
        isplitl [Hv0]; · iexact Hv0
        iexact Hv1
      iexact HY
    unfold Pipeline.Dat.owesAt Pipeline.owesWithin
    icases HO with ⟨%W, -, HO⟩; iexists W; iexact HO

/-! ## The program as the two segments, and the launch -/

abbrev segs : List (Pipeline.Seg (pcfgs (F := F)) adm (pdats m) () defs₀ 𝒱₀ L lv) :=
  [.region (normSeg m), .region (gramSeg m)]

set_option backward.isDefEq.respectTransparency.types false in
/-- From any launch memory with zero counters every weakly fair execution terminates, nothing faulting; the result
    array ends at `gramArr` and the two arguments as launched. -/
theorem run : θ_run defs (onTc (τ := τ) (main (F := F))) ⟨m, fun _ => 0, ρ⟩ (fun r => ∀ c : Dev nD,
      r.2.mem ((c.tc : Thread nD τ).loc main_v1) = gramArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_segs adm (pdats m) () 𝒱₀ L lv (normSeg m) (gramSeg m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
        (h c _ (mem_uc main_arg0 (by decide))).trans (W2_main_arg0 m c),
        (h c _ (mem_uc main_arg1 (by decide))).trans (W2_main_arg1 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.TwoRegions

end
-- ==== Proof.Spec.lean ====
/-
  The mathematics both programs compute, index by index, on the extended reals.

  From x : [8192, 256] and a : [4, 256]: head h scales row n of x entrywise by row h of a, and divides the
  scaled row by its Euclidean length, the squared length clamped below by ε (so the factor is
  rsqrt (max (Σ_d s², ε))). The four normalised rows of one n, laid side by side, are row n of a feature
  matrix of 1024 columns (column k belongs to head k / 256, entry k % 256). The result is the Gram matrix of
  the feature rows divided by the number of heads, 4.

  One program divides the Gram entry by 4 at the end; the other halves every feature before the product.
  On the extended reals a product of two halved factors is a quarter of the product (multiplication is
  commutative and associative there), and a NONNEGATIVE FINITE scalar distributes over a finite sum
  even when terms are infinite, so the two agree with no finiteness assumption: `gramHalved_eq_gramQuartered`.
-/
import Idealize.ShloMosaic.PureOps.Ideal
import Idealize.ShloMosaic.PureOps.Ideal.Laws
import Idealize.ShloMosaic.Lib.ValueIdx

noncomputable section

open scoped BigOperators

namespace Cert.Attentive

open Idealize.ShloMosaic Idealize.ShloMosaic.ValueIdx

/-- The clamp ε under the square root: the f32 nearest 1e-12, the same word in both programs. -/
def eps : EReal := Ideal.ofBits .f32 0x2B8CBCCC#32
/-- One half (an exact dyadic). -/
def half : EReal := Ideal.ofBits .f32 0x3F000000#32
/-- Four, the number of heads. -/
def four : EReal := Ideal.ofBits .f32 0x40800000#32

variable (x : (⟨2, ![8192, 256]⟩ : Shape).Idx → EReal) (a : (⟨2, ![4, 256]⟩ : Shape).Idx → EReal)

/-- Head `h`'s scaled row `n` at entry `d`: a[h, d] · x[n, d]. -/
def scaled (h : Fin 4) (n : Fin 8192) (d : Fin 256) : EReal := a (ix2 h d) * x (ix2 n d)

/-- The squared length of head `h`'s scaled row `n`. -/
def sumsq (h : Fin 4) (n : Fin 8192) : EReal := ∑ d : Fin 256, scaled x a h n d * scaled x a h n d

/-- The normalised entry: the scaled entry times rsqrt of the clamped squared length. -/
def unitEntry (h : Fin 4) (n : Fin 8192) (d : Fin 256) : EReal :=
  scaled x a h n d * Ideal.rsqrt (max (sumsq x a h n) eps)

/-- Column `k` of the feature matrix belongs to head `k / 256`, entry `k % 256`. -/
def headOf (k : Fin 1024) : Fin 4 := ⟨k.val / 256, by have := k.isLt; omega⟩
def entryOf (k : Fin 1024) : Fin 256 := ⟨k.val % 256, by have := k.isLt; omega⟩

/-- The feature matrix: the four heads' normalised rows side by side. -/
def feat (n : Fin 8192) (k : Fin 1024) : EReal := unitEntry x a (headOf k) n (entryOf k)

/-- The halved feature matrix (what the first kernel writes). -/
def featHalved (n : Fin 8192) (k : Fin 1024) : EReal := feat x a n k * half

/-- The Gram matrix of the features, divided by four at the end. -/
def gramQuartered (i : (⟨2, ![8192, 8192]⟩ : Shape).Idx) : EReal :=
  Ideal.div (∑ k : Fin 1024, feat x a (i 0) k * feat x a (i 1) k) four

/-- The Gram matrix of the halved features. -/
def gramHalved (i : (⟨2, ![8192, 8192]⟩ : Shape).Idx) : EReal :=
  ∑ k : Fin 1024, featHalved x a (i 0) k * featHalved x a (i 1) k

end Cert.Attentive

end
-- ==== Proof.Law.lean ====
/-
  The algebraic law: the Gram matrix of the halved features is the Gram matrix of the features divided by four.

  On the extended reals multiplication is commutative and associative, so (u · h) · (v · h) = (u · v) · (h · h),
  and for h = 1/2 the factor h · h is the real 1/4. Division by the real 4 is multiplication by 1/4. A nonnegative
  finite scalar distributes over a finite sum of extended reals whatever the terms are (infinite ones included),
  so Σ_k (c_k · 1/4) = (Σ_k c_k) · 1/4. No finiteness of the inputs is used.
-/
import proofs.«107795_j24223615549685_2_alg».proof.Proof.Spec

noncomputable section

open scoped BigOperators

namespace Cert.Attentive

open Idealize.ShloMosaic Idealize.ShloMosaic.ValueIdx

/-- The f32 word 0x3F000000 denotes the real 1/2. -/
theorem half_eq : half = ((1 / 2 : ℝ) : EReal) := by
  unfold half
  simp [Ideal.ofBits, Ideal.ieee, -EReal.coe_mul]; norm_num

/-- The f32 word 0x40800000 denotes the real 4. -/
theorem four_eq : four = ((4 : ℝ) : EReal) := by
  unfold four
  simp [Ideal.ofBits, Ideal.ieee, -EReal.coe_mul]; norm_num

/-- A nonnegative real scalar distributes over a finite sum of extended reals: Σ_k (c_k · q) = (Σ_k c_k) · q. -/
theorem sum_mul_coe {ι : Type} (s : Finset ι) (c : ι → EReal) {q : ℝ} (hq : 0 ≤ q) :
    ∑ k ∈ s, c k * (q : EReal) = (∑ k ∈ s, c k) * (q : EReal) := by
  classical
  induction s using Finset.induction_on with
  | empty => simp
  | insert k s hk ih =>
    rw [Finset.sum_insert hk, Finset.sum_insert hk, ih,
      EReal.right_distrib_of_nonneg_of_ne_top (by exact_mod_cast hq) (EReal.coe_ne_top q)]

/-- The Gram matrix of the halved features equals the Gram matrix of the features divided by four. -/
theorem gramHalved_eq_gramQuartered (x : (⟨2, ![8192, 256]⟩ : Shape).Idx → EReal)
    (a : (⟨2, ![4, 256]⟩ : Shape).Idx → EReal) : gramHalved x a = gramQuartered x a := by
  funext i
  unfold gramHalved gramQuartered featHalved
  rw [four_eq, Ideal.div_coe (by norm_num : (4 : ℝ) ≠ 0), half_eq, ← sum_mul_coe _ _ (by norm_num)]
  refine Finset.sum_congr rfl fun k _ => ?_
  rw [mul_mul_mul_comm, ← EReal.coe_mul]
  norm_num

end Cert.Attentive

end
-- ==== Proof.RefValue.lean ====
/-
  The reference program, read at an index, is the Gram matrix of the features divided by four.

  Reading the reference's operations one at a time at an index (i, j) of the result:
    * the two broadcasts of a and x followed by the product give, at (h, n, d), the scaled entry a[h, d] · x[n, d];
    * the sum of its squares over d, started from 0, is the squared length of head h's scaled row n;
    * the maximum with ε, the reciprocal square root, the broadcast along d and the product give the normalised entry;
    * the transpose (h, n, d) → (n, h, d) followed by the reshape [8192, 4, 256] → [8192, 1024] reads, at (n, k), the
      normalised entry of head (n · 1024 + k) / 256 % 4 = k / 256 at entry (n · 1024 + k) % 256 = k % 256 (as k < 1024):
      the feature matrix;
    * the contraction of the feature matrix with its transpose over k is the Gram matrix, and the last operation
      divides it by the constant four.
-/
import proofs.«107795_j24223615549685_2_alg».proof.Proof.Gen.ReferenceIdeal.Read
import proofs.«107795_j24223615549685_2_alg».proof.Proof.Spec

noncomputable section

open scoped BigOperators

namespace Cert.ReferenceIdeal.RefValue

open Cert.ReferenceIdeal Cert.ReferenceIdeal.Gen Cert.ReferenceIdeal.Read Cert.Attentive
open Idealize.ShloMosaic Idealize.ShloMosaic.TcCoe Idealize.ShloMosaic.ValueIdx

variable (x0 : (⟨S8192x256, .f32⟩ : BufTy).Contents (Elt Ideal)) (x1 : (⟨S4x256, .f32⟩ : BufTy).Contents (Elt Ideal))

/-! ### The index maps of the layout operations, in coordinates -/

/-- The two broadcasts of a read (h, n, d) at a's (h, d). -/
theorem idx_a (h : Fin 4) (n : Fin 8192) (d : Fin 256) :
    idx_main_v0 (idx_main_v2 (ix3 h n d)) = ix2 h d :=
  funext fun c => Fin.ext (by match c with | ⟨0, _⟩ => rfl | ⟨1, _⟩ => rfl)

/-- The two broadcasts of x read (h, n, d) at x's (n, d). -/
theorem idx_x (h : Fin 4) (n : Fin 8192) (d : Fin 256) :
    idx_main_v1 (idx_main_v3 (ix3 h n d)) = ix2 n d :=
  funext fun c => Fin.ext (by match c with | ⟨0, _⟩ => rfl | ⟨1, _⟩ => rfl)

/-- The sum over the last axis reads (h, n) at (h, n, d), d running. -/
theorem idx_sum (h : Fin 4) (n : Fin 8192) (d : Fin 256) :
    idx_main_v6 (ix2 h n) d = ix3 h n d :=
  funext fun c => Fin.ext (by match c with | ⟨0, _⟩ => rfl | ⟨1, _⟩ => rfl | ⟨2, _⟩ => rfl)

/-- The unit-width column and its broadcast along d read (h, n, d) at the sum's (h, n). -/
theorem idx_col (h : Fin 4) (n : Fin 8192) (d : Fin 256) :
    idx_main_v7 (idx_main_v11 (ix3 h n d)) = ix2 h n :=
  funext fun c => Fin.ext (by match c with | ⟨0, _⟩ => rfl | ⟨1, _⟩ => rfl)

/-- The transpose and the reshape read (n, k) at head k / 256, row n, entry k % 256. -/
theorem idx_feat (n : Fin 8192) (k : Fin 1024) :
    idx_main_v13 (idx_main_v14 (ix2 n k)) = ix3 (headOf k) n (entryOf k) :=
  funext fun c => Fin.ext (by
    have hn := n.isLt
    have hk := k.isLt
    match c with
    | ⟨0, _⟩ => show (n.val * 1024 + k.val) / 256 % 4 = k.val / 256; omega
    | ⟨1, _⟩ => show (n.val * 1024 + k.val) / 1024 = n.val; omega
    | ⟨2, _⟩ => show (n.val * 1024 + k.val) % 256 = k.val % 256; omega)

/-- The second transpose reads (k, n) at (n, k). -/
theorem idx_tr (k : Fin 1024) (n : Fin 8192) : idx_main_v15 (ix2 k n) = ix2 n k :=
  funext fun c => Fin.ext (by match c with | ⟨0, _⟩ => rfl | ⟨1, _⟩ => rfl)

/-- The contraction's left operand is read at (n, k). -/
theorem idx_lhs (n n' : Fin 8192) (k : Fin 1024) : lidx_main_v16 (ix2 n n') k = ix2 n k :=
  funext fun c => Fin.ext (by match c with | ⟨0, _⟩ => rfl | ⟨1, _⟩ => rfl)

/-- The contraction's right operand is read at (k, n'). -/
theorem idx_rhs (n n' : Fin 8192) (k : Fin 1024) : ridx_main_v16 (ix2 n n') k = ix2 k n' :=
  funext fun c => Fin.ext (by match c with | ⟨0, _⟩ => rfl | ⟨1, _⟩ => rfl)

/-! ### The stages, read at an index -/

/-- The product of the broadcasts is the scaled entry a[h, d] · x[n, d]. -/
theorem scaled_at (h : Fin 4) (n : Fin 8192) (d : Fin 256) :
    val_main_v4 (F := Ideal) x0 x1 (ix3 h n d) = scaled x0 x1 h n d := by
  rw [val_main_v4_apply, val_main_v2_apply, val_main_v0_apply, val_main_v3_apply, val_main_v1_apply, idx_a, idx_x]
  rfl

/-- The sum of the squares over d, started at zero, is the squared length. -/
theorem sumsq_at (h : Fin 4) (n : Fin 8192) :
    val_main_v6 (F := Ideal) x0 x1 (ix2 h n) = sumsq x0 x1 h n := by
  rw [val_main_v6_apply, val_main_cst_apply, Ideal.ofBits_def, Ideal.ofBits_zero_f32, zero_add]
  unfold sumsq
  refine Finset.sum_congr rfl fun d _ => ?_
  rw [idx_sum, val_main_v5_apply, scaled_at]
  rfl

/-- The scaled entry times the reciprocal square root of the clamped squared length is the normalised entry. -/
theorem unit_at (h : Fin 4) (n : Fin 8192) (d : Fin 256) :
    val_main_v12 (F := Ideal) x0 x1 (ix3 h n d) = unitEntry x0 x1 h n d := by
  rw [val_main_v12_apply, val_main_v11_apply, val_main_v10_apply, val_main_v9_apply, val_main_v7_apply, val_main_v8_apply,
    val_main_cst_0_apply, idx_col, scaled_at, sumsq_at]
  rfl

/-- The transposed and reshaped array is the feature matrix. -/
theorem feat_at (n : Fin 8192) (k : Fin 1024) :
    val_main_v14 (F := Ideal) x0 x1 (ix2 n k) = feat x0 x1 n k := by
  rw [val_main_v14_apply, val_main_v13_apply, idx_feat, unit_at]
  rfl

/-- Its transpose is the feature matrix read at the swapped index. -/
theorem featT_at (k : Fin 1024) (n : Fin 8192) :
    val_main_v15 (F := Ideal) x0 x1 (ix2 k n) = feat x0 x1 n k := by
  rw [val_main_v15_apply, idx_tr, feat_at]

/-- The reference's result is the Gram matrix of the features divided by four. -/
theorem ref_is_gramQuartered :
    val_main_v18 (F := Ideal) x0 x1 = gramQuartered x0 x1 := by
  funext i
  obtain ⟨n, n', rfl⟩ : ∃ (n : Fin 8192) (n' : Fin 8192), i = ix2 n n' := ⟨i 0, i 1, eq_ix2 i⟩
  rw [val_main_v18_apply, val_main_v16_apply, val_main_v17_apply, val_main_cst_1_apply]
  show Ideal.div _ four = Ideal.div (∑ k : Fin 1024, feat x0 x1 n k * feat x0 x1 n' k) four
  refine congrArg (Ideal.div · four) (Finset.sum_congr rfl fun k _ => ?_)
  rw [idx_lhs, idx_rhs, feat_at, featT_at]

end Cert.ReferenceIdeal.RefValue

end
-- ==== Proof.Payloads.lean ====
/-
  The two kernels' arithmetic read at an index, on the extended reals.

  First kernel. For a block `v0 : [1024, 256]` of x and ONE row `r : [1, 256]` of a, every head writes the array whose
  entry `(p, q)` is

      ((r[0, q] · v0[p, q]) · rsqrt (max (Σ_d (r[0, d] · v0[p, d])², ε))) · ½        (`headBlock`),

  the sum being over the 256 lanes of row `p` into a zero accumulator, the column of sums `[1024] → [1024, 1]`
  broadcast back over the lanes, and the narrowing of the format the identity. Three heads are written as one term,
  the fourth as the same tail applied to the scaled block and its column of squared lengths: the four are one
  function (`pay_head0` … `pay_head3`).

  Second kernel. The product of `v2 : [512, 1024]` and `v5 : [1024, 1024]`, each contracted along its SECOND axis,
  into a zero accumulator: entry `(p, q)` is `Σ_k v2[p, k] · v5[q, k]` (`pay_mm`).
-/
import proofs.«107795_j24223615549685_2_alg».proof.Proof.Gen.KernelIdeal.Skeleton
import proofs.«107795_j24223615549685_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The layout operations of the four heads, read at an index -/

section Layout
variable {α : Type}

/-- The one row `[1, 256]` broadcast over 1024 rows reads, at `(p, q)`, the row at `q`. -/
theorem bcast_row (r : S1x256.Idx → α) (p : Fin 1024) (q : Fin 256) :
    broadcastTo S1024x256 r broadcasts_S1x256_S1024x256 (ix2 p q) = r (ix2 (0 : Fin 1) q) :=
  broadcastTo_1b_ab_apply r _ p q

/-- A column `[1024, 1]` broadcast over 256 lanes reads, at `(p, q)`, the column at `p`. -/
theorem bcast_col (c : S1024x1.Idx → α) (p : Fin 1024) (q : Fin 256) :
    broadcastTo S1024x256 c broadcasts_S1024x1_S1024x256 (ix2 p q) = c (ix2 p (0 : Fin 1)) := by
  refine broadcastTo_apply c _ (ix2 p q) (ix2 p (0 : Fin 1)) fun ax => ?_
  match ax with
  | ⟨0, _⟩ =>
    show p.val = if (1024 : Nat) = 1 then 0 else p.val
    rw [if_neg (by decide)]
  | ⟨1, _⟩ =>
    show (0 : Nat) = if (1 : Nat) = 1 then 0 else q.val
    rw [if_pos rfl]

/-- A vector `[1024]` cast to the column `[1024, 1]` reads, at `(p, u)`, the vector at `p`. -/
theorem cast_col (w : S1024.Idx → α) (p : Fin 1024) (u : Fin 1) :
    shapeCast S1024x1 w shapeCasts_S1024_S1024x1 (ix2 p u) = w (ix1 p) :=
  shapeCast_apply w _ _ _ (by
    have hu : u.val = 0 := by omega
    rw [Shape.rowMajor_val_two, Shape.rowMajor_val_one]
    show p.val = p.val * 1 + u.val
    rw [hu, Nat.mul_one, Nat.add_zero])

end Layout

/-- The sum over the 256 lanes of a `[1024, 256]` block into a zero accumulator is, at row `p`, the sum of
    that row's entries. -/
theorem lane_sum (y : FVec Ideal S1024x256 .f32) (p : Fin 1024) :
    multiReduction (F := Ideal) .add [1] S1024 y 0x00000000#32 reduces_S1024x256_S1024 (.inl rfl) rfl (ix1 p)
      = ∑ d : Fin 256, y (ix2 p d) := by
  refine (Ideal.multiReduction_add_single y _ reduces_S1024x256_S1024 (.inl rfl) rfl (ix1 p)).trans ?_
  refine Finset.sum_congr rfl fun d _ => ?_
  exact congrArg y (funext fun a => Fin.ext (by match a with | ⟨0, _⟩ => rfl | ⟨1, _⟩ => rfl))

/-! ## The four heads -/

/-- What every head writes at `(p, q)` of its block: the scaled entry, times the reciprocal square root of the
    clamped sum of the scaled row's squares, times one half. -/
def headBlock (v0 : Vec Ideal S1024x256 .f32) (r : Vec Ideal S1x256 .f32) (p : Fin 1024) (q : Fin 256) : EReal :=
  ((r (ix2 (0 : Fin 1) q) * v0 (ix2 p q))
      * Ideal.rsqrt (max (∑ d : Fin 256, (r (ix2 (0 : Fin 1) d) * v0 (ix2 p d)) * (r (ix2 (0 : Fin 1) d) * v0 (ix2 p d)))
          Cert.Attentive.eps))
    * Cert.Attentive.half

/-- The shared tail of a head: from the scaled block `s`, the column `c` of squared lengths and the clamp `e`,
    the entry `(p, q)` is `s[p, q] · rsqrt (max c[p] e) · ½` (the narrowing to bf16 is the identity on the
    extended reals). -/
theorem tail_apply (s : FVec Ideal S1024x256 .f32) (c : FVec Ideal S1024x1 .f32) (e : Ideal .f32)
    (p : Fin 1024) (q : Fin 256) :
    k0_pay1 (F := Ideal) s c e (ix2 p q)
      = (s (ix2 p q) * Ideal.rsqrt (max (c (ix2 p (0 : Fin 1))) e)) * Cert.Attentive.half := by
  unfold k0_pay1
  show (s (ix2 p q) * broadcastTo S1024x256 (rsqrt (maximumf c (broadcast S1024x1 e)))
      broadcasts_S1024x1_S1024x256 (ix2 p q)) * _ = _
  rw [bcast_col]
  rfl

/-- The scaled block: row `r` times the block, entrywise. -/
theorem scaled_apply (v0 : Vec Ideal S1024x256 .f32) (r : Vec Ideal S1x256 .f32) (p : Fin 1024) (q : Fin 256) :
    k0_pay5 (F := Ideal) v0 r (ix2 p q) = r (ix2 (0 : Fin 1) q) * v0 (ix2 p q) := by
  unfold k0_pay5
  show broadcastTo S1024x256 r broadcasts_S1x256_S1024x256 (ix2 p q) * v0 (ix2 p q) = _
  rw [bcast_row]

/-- The column of squared lengths: at row `p` the sum over the lanes of the scaled entries' squares. -/
theorem sumsq_apply (v0 : Vec Ideal S1024x256 .f32) (r : Vec Ideal S1x256 .f32) (p : Fin 1024) (u : Fin 1) :
    k0_pay6 (F := Ideal) v0 r (ix2 p u)
      = ∑ d : Fin 256, (r (ix2 (0 : Fin 1) d) * v0 (ix2 p d)) * (r (ix2 (0 : Fin 1) d) * v0 (ix2 p d)) := by
  unfold k0_pay6
  refine (cast_col _ p u).trans ?_
  refine (lane_sum _ p).trans ?_
  refine Finset.sum_congr rfl fun d _ => ?_
  show k0_pay5 (F := Ideal) v0 r (ix2 p d) * k0_pay5 (F := Ideal) v0 r (ix2 p d) = _
  rw [scaled_apply]

/-- Head 2: the tail applied to the scaled block and to its column of squared lengths. -/
theorem pay_head2 (v0 : Vec Ideal S1024x256 .f32) (r : Vec Ideal S1x256 .f32) (p : Fin 1024) (q : Fin 256) :
    k0_pay1 (F := Ideal) (k0_pay5 v0 r) (k0_pay6 v0 r) (Scalar.ofBits .f32 0x2B8CBCCC#32) (ix2 p q) = headBlock v0 r p q := by
  rw [tail_apply, scaled_apply, sumsq_apply]
  rfl

/-- Heads 0, 1 and 3 are the same term with the scaled block and the column written in place. -/
theorem pay_head0 (v0 : Vec Ideal S1024x256 .f32) (r : Vec Ideal S1x256 .f32) (p : Fin 1024) (q : Fin 256) :
    k0_pay3 (F := Ideal) v0 r (ix2 p q) = headBlock v0 r p q :=
  pay_head2 v0 r p q

theorem pay_head1 (v0 : Vec Ideal S1024x256 .f32) (r : Vec Ideal S1x256 .f32) (p : Fin 1024) (q : Fin 256) :
    k0_pay4 (F := Ideal) v0 r (ix2 p q) = headBlock v0 r p q :=
  pay_head2 v0 r p q

theorem pay_head3 (v0 : Vec Ideal S1024x256 .f32) (r : Vec Ideal S1x256 .f32) (p : Fin 1024) (q : Fin 256) :
    k0_pay2 (F := Ideal) v0 r (ix2 p q) = headBlock v0 r p q :=
  pay_head2 v0 r p q

/-! ## The matrix product -/

/-- The product's dimension numbers: both operands contract their axis 1; the rows of the result are the left
    operand's axis 0, its columns the right operand's axis 0. -/
abbrev mmDims : DotDims S512x1024 S1024x1024 S512x1024 := dot_S512x1024_S1024x1024_S512x1024_1_1_0_0_n_n

theorem mm_lhs0 (i : S512x1024.Idx) (k : mmDims.contr.Idx) : (mmDims.lhsIdx i k 0).val = (i 0).val := by
  unfold DotDims.lhsIdx
  rw [dif_neg (show ¬(0 : Fin S512x1024.rank) ∈ mmDims.lhsBatch by decide),
    dif_pos (show (0 : Fin S512x1024.rank) ∈ mmDims.lhsNonContracting by decide)]
  rfl

theorem mm_lhs1 (i : S512x1024.Idx) (k : mmDims.contr.Idx) : (mmDims.lhsIdx i k 1).val = (k ⟨0, by decide⟩).val :=
  mmDims.lhsIdx_val_of_single rfl i k

theorem mm_rhs0 (i : S512x1024.Idx) (k : mmDims.contr.Idx) : (mmDims.rhsIdx i k 0).val = (i 1).val := by
  unfold DotDims.rhsIdx
  rw [dif_neg (show ¬(0 : Fin S1024x1024.rank) ∈ mmDims.rhsBatch by decide),
    dif_pos (show (0 : Fin S1024x1024.rank) ∈ mmDims.rhsNonContracting by decide)]
  rfl

theorem mm_rhs1 (i : S512x1024.Idx) (k : mmDims.contr.Idx) : (mmDims.rhsIdx i k 1).val = (k ⟨0, by decide⟩).val :=
  mmDims.rhsIdx_val_of_single rfl i k

/-- The second kernel's product at `(p, q)`: the sum over `k` of `v2[p, k] · v5[q, k]` (both operands are
    contracted along their second axis; the accumulator is the zero splat; the two shape casts are to the same shape). -/
theorem pay_mm (v2 : Vec Ideal S512x1024 .bf16) (v5 : Vec Ideal S1024x1024 .bf16) (p : Fin 512) (q : Fin 1024) :
    k1_pay1 (F := Ideal) v2 v5 (ix2 p q) = ∑ k : Fin 1024, v2 (ix2 p k) * v5 (ix2 q k) := by
  unfold k1_pay1
  rw [shapeCast_self, shapeCast_self]
  simp only [matmul]
  rw [Ideal.matmul_constant_zero_apply, ← Equiv.sum_comp (contrEquiv1 mmDims 1024 rfl rfl).symm]
  refine Finset.sum_congr rfl fun k _ => ?_
  have hk := contrEquiv1_symm_val mmDims 1024 rfl rfl k
  have el : mmDims.lhsIdx (ix2 p q) ((contrEquiv1 mmDims 1024 rfl rfl).symm k) = ix2 p k :=
    funext fun a => Fin.ext (by
      match a with
      | ⟨0, _⟩ => exact mm_lhs0 _ _
      | ⟨1, _⟩ => exact (mm_lhs1 _ _).trans hk)
  have er : mmDims.rhsIdx (ix2 p q) ((contrEquiv1 mmDims 1024 rfl rfl).symm k) = ix2 q k :=
    funext fun a => Fin.ext (by
      match a with
      | ⟨0, _⟩ => exact mm_rhs0 _ _
      | ⟨1, _⟩ => exact (mm_rhs1 _ _).trans hk)
  rw [el, er]

end Cert.KernelIdeal.Payloads

end
-- ==== Proof.FeatValue.lean ====
/-
  What the first kernel leaves in its output array, on the extended reals: the halved feature matrix.

  The kernel runs over 8 grid points. Point t reads rows [1024 t, 1024 t + 1024) of x (a block of [1024, 256]) and
  all of a ([4, 256]), and writes back a block of [1024, 1024]: rows [1024 t, 1024 t + 1024) of the output. The block
  is four column bands, one per head h; entry (p, 256 h + q) is the head's arithmetic on row p of the x block and
  on row h of a,

      ((a[h, q] · x[n, q]) · rsqrt (max (Σ_d (a[h, d] · x[n, d])², ε))) · ½        with n = 1024 t + p,

  which is the halved feature at (n, 256 h + q): column k of the feature matrix belongs to head k / 256, entry
  k % 256. The eight row blocks tile the [8192, 1024] array (row i lies in the block of point i / 1024), so after
  the last point the array is the halved feature matrix of the two arguments, index by index (`featArr_eq`).
-/
import proofs.«107795_j24223615549685_2_alg».proof.Proof.NormRegionIdeal
import proofs.«107795_j24223615549685_2_alg».proof.Proof.Payloads
import proofs.«107795_j24223615549685_2_alg».proof.Proof.Spec
import Idealize.ShloMosaic.Lib.Pipeline.Value
import Idealize.ShloMosaic.Lib.ValueIdx

noncomputable section

open scoped BigOperators

namespace Cert.KernelIdeal.FeatValue

open Cert.KernelIdeal Cert.KernelIdeal.Gen Cert.Attentive
open Idealize.ShloMosaic Idealize.ShloMosaic.TcCoe Idealize.ShloMosaic.ValueIdx Idealize.SL.Sem
open Idealize.ShloMosaic.Pipeline (Dat)

open Cert.KernelIdeal.Payloads in
/-- A head's entry depends on row `p` of the block and on the one row of `a` alone; when those are row `n` of x
    and row `h` of a, it is the halved feature at `(n, k)` for the column `k` of head `h`, entry `q`. -/
theorem headBlock_eq_featHalved (x : S8192x256.Idx → EReal) (a : S4x256.Idx → EReal)
    (X : Vec Ideal S1024x256 .f32) (r : Vec Ideal S1x256 .f32) (p : Fin 1024) (q : Fin 256) (n : Fin 8192) (k : Fin 1024) (h : Fin 4)
    (hX : ∀ d : Fin 256, X (ix2 p d) = x (ix2 n d)) (hr : ∀ d : Fin 256, r (ix2 (0 : Fin 1) d) = a (ix2 h d))
    (hh : headOf k = h) (hq : entryOf k = q) :
    headBlock X r p q = featHalved x a n k := by
  subst hh hq
  simp only [headBlock, featHalved, feat, unitEntry, sumsq, scaled, hX, hr]

/-! ## One grid point's block -/

theorem hz : (![0, 0] : Fin 2 → Nat) = fun _ => 0 := funext fun a => by fin_cases a <;> rfl

/-- The array of halved features, index by index. -/
def halvedFeatures (x : S8192x256.Idx → EReal) (a : S4x256.Idx → EReal) : S8192x1024.Idx → EReal :=
  fun i => featHalved x a (i 0) (i 1)

/-- Rows `[1024 t, 1024 t + 1024)` of the array of halved features, as a block of `[1024, 1024]`. -/
def rowsFeat (x : S8192x256.Idx → EReal) (a : S4x256.Idx → EReal) (tv : Nat) (ht : tv < 8) : S1024x1024.Idx → EReal :=
  fun y => featHalved x a ⟨1024 * tv + (y 0).val, by have := idx2_lt0 y; omega⟩ (y 1)

open Cert.KernelIdeal.Payloads in
/-- Head `h`'s entry `(p, q)` is the block's entry in column `256 h + q`. -/
theorem band_entry (x : S8192x256.Idx → EReal) (a : S4x256.Idx → EReal)
    (X : Vec Ideal S1024x256 .f32) (r : Vec Ideal S1x256 .f32) (tv : Nat) (ht : tv < 8)
    (hX : ∀ (p : Fin 1024) (n : Fin 8192), n.val = 1024 * tv + p.val → ∀ d : Fin 256, X (ix2 p d) = x (ix2 n d))
    (h : Fin 4) (hr : ∀ d : Fin 256, r (ix2 (0 : Fin 1) d) = a (ix2 h d))
    (p : Fin 1024) (q : Fin 256) (y : S1024x1024.Idx) (hy0 : (y 0).val = p.val) (hy1 : (y 1).val = 256 * h.val + q.val) :
    headBlock X r p q = rowsFeat x a tv ht y := by
  unfold rowsFeat
  have hq := q.isLt
  have hh := h.isLt
  exact headBlock_eq_featHalved x a X r p q _ _ h (hX p _ (by show 1024 * tv + (y 0).val = _; rw [hy0])) hr
    (Fin.ext (by show (y 1).val / 256 = h.val; omega)) (Fin.ext (by show (y 1).val % 256 = q.val; omega))

/-- The block the body leaves, when its x block is rows `[1024 t, 1024 t + 1024)` of x and its a block is a: the
    four column bands are the four heads, and together they are those rows of the halved features. -/
theorem featBlock_eq (x : S8192x256.Idx → EReal) (a : S4x256.Idx → EReal)
    (X : Vec Ideal S1024x256 .f32) (A : Vec Ideal S4x256 .f32) (tv : Nat) (ht : tv < 8)
    (hX : ∀ (p : Fin 1024) (n : Fin 8192), n.val = 1024 * tv + p.val → ∀ d : Fin 256, X (ix2 p d) = x (ix2 n d))
    (hA : ∀ (h : Fin 4) (d : Fin 256), A (ix2 h d) = a (ix2 h d)) :
    NormRegion.featBlock (F := Ideal) X A = rowsFeat x a tv ht := by
  funext y
  unfold NormRegion.featBlock
  refine View.canon_apply_of_pieces (Val := Elt Ideal) (S := S1024x1024) (e := .bf16) (rowsFeat x a tv ht) _ ?_ y (NormRegion.bands_cover _ _ _ _ y)
  intro pc hpc xx
  simp only [List.mem_cons, List.mem_singleton, List.not_mem_nil, or_false] at hpc
  rcases hpc with rfl | rfl | rfl | rfl
  · obtain ⟨p, q, rfl⟩ : ∃ (p : Fin 1024) (q : Fin 256), xx = ix2 p q := ⟨xx 0, xx 1, eq_ix2 xx⟩
    refine (Payloads.pay_head3 _ _ p q).trans ?_
    refine band_entry x a _ _ tv ht (fun p n hn d => ?_) 3 (fun d => ?_) p q _ ?_ ?_
    · rw [View.ld_unit_zero hz]; exact hX p n hn d
    · refine Eq.trans ?_ (hA 3 d)
      show A (NormRegion.rA3.idx (ix2 (0 : Fin 1) d)) = A (ix2 3 d)
      refine congrArg A (funext fun ax => Fin.ext ?_)
      match ax with
      | ⟨0, _⟩ => rfl
      | ⟨1, _⟩ => show 0 + 1 * d.val = d.val; omega
    · show 0 + 1 * p.val = p.val; omega
    · show 768 + 1 * q.val = 256 * 3 + q.val; omega
  · obtain ⟨p, q, rfl⟩ : ∃ (p : Fin 1024) (q : Fin 256), xx = ix2 p q := ⟨xx 0, xx 1, eq_ix2 xx⟩
    refine (Payloads.pay_head2 _ _ p q).trans ?_
    refine band_entry x a _ _ tv ht (fun p n hn d => ?_) 2 (fun d => ?_) p q _ ?_ ?_
    · rw [View.ld_unit_zero hz]; exact hX p n hn d
    · refine Eq.trans ?_ (hA 2 d)
      show A (NormRegion.rA2.idx (ix2 (0 : Fin 1) d)) = A (ix2 2 d)
      refine congrArg A (funext fun ax => Fin.ext ?_)
      match ax with
      | ⟨0, _⟩ => rfl
      | ⟨1, _⟩ => show 0 + 1 * d.val = d.val; omega
    · show 0 + 1 * p.val = p.val; omega
    · show 512 + 1 * q.val = 256 * 2 + q.val; omega
  · obtain ⟨p, q, rfl⟩ : ∃ (p : Fin 1024) (q : Fin 256), xx = ix2 p q := ⟨xx 0, xx 1, eq_ix2 xx⟩
    refine (Payloads.pay_head1 _ _ p q).trans ?_
    refine band_entry x a _ _ tv ht (fun p n hn d => ?_) 1 (fun d => ?_) p q _ ?_ ?_
    · rw [View.ld_unit_zero hz]; exact hX p n hn d
    · refine Eq.trans ?_ (hA 1 d)
      show A (NormRegion.rA1.idx (ix2 (0 : Fin 1) d)) = A (ix2 1 d)
      refine congrArg A (funext fun ax => Fin.ext ?_)
      match ax with
      | ⟨0, _⟩ => rfl
      | ⟨1, _⟩ => show 0 + 1 * d.val = d.val; omega
    · show 0 + 1 * p.val = p.val; omega
    · show 256 + 1 * q.val = 256 * 1 + q.val; omega
  · obtain ⟨p, q, rfl⟩ : ∃ (p : Fin 1024) (q : Fin 256), xx = ix2 p q := ⟨xx 0, xx 1, eq_ix2 xx⟩
    refine (Payloads.pay_head0 _ _ p q).trans ?_
    refine band_entry x a _ _ tv ht (fun p n hn d => ?_) 0 (fun d => ?_) p q _ ?_ ?_
    · rw [View.ld_unit_zero hz]; exact hX p n hn d
    · refine Eq.trans ?_ (hA 0 d)
      show A (NormRegion.rA0.idx (ix2 (0 : Fin 1) d)) = A (ix2 0 d)
      refine congrArg A (funext fun ax => Fin.ext ?_)
      match ax with
      | ⟨0, _⟩ => rfl
      | ⟨1, _⟩ => show 0 + 1 * d.val = d.val; omega
    · show 0 + 1 * p.val = p.val; omega
    · show 0 + 1 * q.val = 256 * 0 + q.val; omega

/-! ## From the blocks to the array -/

variable (V : (c : Dev nD) → (b : Ref sig .tc) → Buf (Elt Ideal) ((c : Thread nD τ).loc b))

/-- The windows' index maps over the grid: at point `t` the x window and the output window are at block row `t`,
    the a window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 8 := lt_of_lt_of_eq t.isLt N_0

/-- The x window's block at point `t` is rows `[1024 t, 1024 t + 1024)` of x. -/
theorem xblock_apply (c : Dev nD) (t : Fin cfg0.N) (p : Fin 1024) (n : Fin 8192) (hn : n.val = 1024 * t.val + p.val) (d : Fin 256) :
    (NormRegion.blockAt V c 0 t : Vec Ideal S1024x256 .f32) (ix2 p d) = (V c main_arg0 : S8192x256.Idx → EReal) (ix2 n d) := by
  obtain ⟨e0, e1, -⟩ := idx_facts t
  unfold NormRegion.blockAt
  rw [View.read_apply]
  show (V c main_arg0 : S8192x256.Idx → EReal) _ = _
  refine congrArg _ (funext fun ax => Fin.ext ?_)
  match ax with
  | ⟨0, _⟩ => show win0_0.index t (0 : Fin 2) * 1024 + 1 * p.val = n.val; rw [e0, hn]; omega
  | ⟨1, _⟩ => show win0_0.index t (1 : Fin 2) * 256 + 1 * d.val = d.val; rw [e1]; omega

/-- The a window's block at every point is all of a. -/
theorem ablock_apply (c : Dev nD) (t : Fin cfg0.N) (h : Fin 4) (d : Fin 256) :
    (NormRegion.blockAt V c 1 t : Vec Ideal S4x256 .f32) (ix2 h d) = (V c main_arg1 : S4x256.Idx → EReal) (ix2 h d) := by
  obtain ⟨-, -, e2, e3, -⟩ := idx_facts t
  unfold NormRegion.blockAt
  rw [View.read_apply]
  show (V c main_arg1 : S4x256.Idx → EReal) _ = _
  refine congrArg _ (funext fun ax => Fin.ext ?_)
  match ax with
  | ⟨0, _⟩ => show win0_1.index t (0 : Fin 2) * 4 + 1 * h.val = h.val; rw [e2]; omega
  | ⟨1, _⟩ => show win0_1.index t (1 : Fin 2) * 256 + 1 * d.val = d.val; rw [e3]; omega

/-- What point `t` writes back is block `t` of the array of halved features of the arguments as the region finds them. -/
theorem flushed_eq (c : Dev nD) (t : Fin cfg0.N) :
    (NormRegion.dat (F := Ideal) V c).flushed 2 t
      = ((cfg0.win 2).blk t).view.read (Elt Ideal) (halvedFeatures (V c main_arg0) (V c main_arg1)) := by
  show (cfg0.win 2).cut (grid0.coords t) ((NormRegion.dat (F := Ideal) V c).after 2 t) = _
  rw [NormRegion.after_out,
    featBlock_eq (V c main_arg0) (V c main_arg1) (NormRegion.blockAt V c 0 t) (NormRegion.blockAt V c 1 t) t.val (point_lt t)
      (xblock_apply V c t) (ablock_apply V c t)]
  obtain ⟨-, -, -, -, e4, e5⟩ := idx_facts t
  funext j
  show featHalved (V c main_arg0) (V c main_arg1) _ _ = featHalved (V c main_arg0) (V c main_arg1) _ _
  congr 1
  · refine Fin.ext ?_
    show 1024 * t.val + (j 0).val = win0_2.index t (0 : Fin 2) * 1024 + 1 * (j 0).val
    rw [e4]; omega
  · refine Fin.ext ?_
    show (j 1).val = win0_2.index t (1 : Fin 2) * 1024 + 1 * (j 1).val
    rw [e5]; omega

/-- Every row of the `[8192, 1024]` array lies in the block of the point `row / 1024`. -/
theorem cover (i : S8192x1024.Idx) : ∃ t : Fin cfg0.N, (cfg0.win 2).flush t = true ∧ i ∈ ((cfg0.win 2).blk t).view.set := by
  have hi0 : (i 0).val < 8192 := idx2_lt0 i
  have hi1 : (i 1).val < 1024 := idx2_lt1 i
  let t : Fin cfg0.N := ⟨(i 0).val / 1024, by rw [show cfg0.N = 8 from N_0]; omega⟩
  obtain ⟨-, -, -, -, e4, e5⟩ := idx_facts t
  have ht : t.val = (i 0).val / 1024 := rfl
  refine ⟨t, flush0_2 t, ?_⟩
  show i ∈ ((View.whole main_v0).slice (win0_2.rect t)).set
  rw [View.set_slice_whole, Rect.mem_set_unit]
  intro ax
  match ax with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5]; omega

/-- After the first kernel's eight points the output array holds the halved features of the two arguments. -/
theorem featArr_eq (c : Dev nD) :
    (NormRegion.dat (F := Ideal) V c).arrAt 2 cfg0.N = halvedFeatures (V c main_arg0) (V c main_arg1) :=
  (NormRegion.dat (F := Ideal) V c).arrAt_eq_of_cover 2 (halvedFeatures (V c main_arg0) (V c main_arg1))
    (fun t _ => flushed_eq V c t) cover

end Cert.KernelIdeal.FeatValue

end
-- ==== Proof.GramValue.lean ====
/-
  The second kernel's result array, index by index: the Gram matrix of the array it reads.

  The grid is 16 × 8. The point of coordinates (I, J) is handed rows [512 I, 512 I + 512) of y : [8192, 1024]
  (the tile) and all of y (the resident copy), of which it loads rows [1024 J, 1024 J + 1024) (the slab). It
  writes the product of the tile and the slab, both contracted along their second axis, over its whole output
  block, which is rows [512 I, 512 I + 512) and columns [1024 J, 1024 J + 1024) of the [8192, 8192] result. So
  entry (p, q) of the block is Σ_k y[512 I + p, k] · y[1024 J + q, k]: the entry (512 I + p, 1024 J + q) of the
  Gram matrix  G[n, n'] = Σ_k y[n, k] · y[n', k]. Every point writes its block back, and the 128 blocks tile
  the result (row n, column n' lies in the block of the point (n / 512, n' / 1024)), so the array ends at G.
-/
import proofs.«107795_j24223615549685_2_alg».proof.Proof.GramRegionIdeal
import proofs.«107795_j24223615549685_2_alg».proof.Proof.Payloads
import proofs.«107795_j24223615549685_2_alg».proof.Proof.Spec
import Idealize.ShloMosaic.Lib.Pipeline.Value
import Idealize.ShloMosaic.Lib.ValueIdx

set_option maxRecDepth 16384

noncomputable section

open scoped BigOperators

namespace Cert.KernelIdeal.GramValue

open Cert.KernelIdeal Cert.KernelIdeal.Gen Cert.KernelIdeal.GramRegion
open Idealize.ShloMosaic Idealize.ShloMosaic.TcCoe Idealize.ShloMosaic.ValueIdx Idealize.SL.Sem
open Idealize.ShloMosaic.Pipeline (Dat)

/-- The Gram matrix of the rows of y : [8192, 1024]: entry (n, n') is Σ_k y[n, k] · y[n', k]. -/
def gramOf (y : S8192x1024.Idx → EReal) : S8192x8192.Idx → EReal :=
  fun i => ∑ k : Fin 1024, y (ix2 (n0 := 8192) (i 0) k) * y (ix2 (n0 := 8192) (i 1) k)

/-- The Gram matrix at an index given by its coordinates. -/
theorem gramOf_apply (y : S8192x1024.Idx → EReal) (n n' : Fin 8192) :
    gramOf y (ix2 n n') = ∑ k : Fin 1024, y (ix2 n k) * y (ix2 n' k) := rfl

theorem zero_offsets : (![0, 0] : Fin 2 → Nat) = fun _ => 0 := funext fun a => by fin_cases a <;> rfl

/-- Entry (p, q) of the product of a tile whose row p is row n of y and a slab whose row q is row n' of y is
    entry (n, n') of the Gram matrix of y. -/
theorem prod_entry (y : S8192x1024.Idx → EReal) (y0 : Vec Ideal S512x1024 .bf16) (y1 : Vec Ideal S1024x1024 .bf16)
    (n n' : Fin 8192) (p : Fin 512) (q : Fin 1024)
    (h0 : ∀ k : Fin 1024, y0 (ix2 p k) = y (ix2 n k))
    (h1 : ∀ k : Fin 1024, y1 (ix2 q k) = y (ix2 n' k)) :
    k1_pay1 (F := Ideal) y0 y1 (ix2 p q) = gramOf y (ix2 n n') := by
  rw [Payloads.pay_mm, gramOf_apply]
  exact Finset.sum_congr rfl fun k _ => by rw [h0, h1]

/-! ## The index maps over the grid -/

/-- At the point of coordinates (I, J): the tile's block index is (I, 0), the resident copy's (0, 0), the
    output's (I, J). -/
theorem idx_facts : ∀ t : Fin cfg1.N,
      win1_0.index t (0 : Fin 2) = (grid1.coords t 0).val ∧ win1_0.index t (1 : Fin 2) = 0
    ∧ win1_1.index t (0 : Fin 2) = 0 ∧ win1_1.index t (1 : Fin 2) = 0
    ∧ win1_2.index t (0 : Fin 2) = (grid1.coords t 0).val ∧ win1_2.index t (1 : Fin 2) = (grid1.coords t 1).val :=
  (by decide +kernel : ∀ t : Fin grid1.N, _)

/-- Every output block index (I, J), I < 16, J < 8, is some point's. -/
theorem idx_onto : ∀ (q0 : Fin 16) (q1 : Fin 8), ∃ t : Fin cfg1.N, win1_2.index t = ![q0.val, q1.val] :=
  (by decide +kernel : ∀ (q0 : Fin 16) (q1 : Fin 8), ∃ t : Fin grid1.N, win1_2.index t = ![q0.val, q1.val])

variable (V : (c : Dev nD) → (b : Ref sig .tc) → Buf (Elt Ideal) ((c : Thread nD τ).loc b)) (c : Dev nD)

/-! ## The two input blocks as rows of the array -/

/-- Row p of the tile at the point (I, J) is row 512 I + p of the array. -/
theorem tile_at (t : Fin cfg1.N) (p : Fin 512) (k : Fin 1024) (n : Fin 8192)
    (hn : n.val = 512 * (grid1.coords t 0).val + p.val) :
    blockAt V c 0 t (ix2 p k) = V c main_v0 (ix2 n k) := by
  obtain ⟨e00, e01, -, -, -, -⟩ := idx_facts t
  show V c main_v0 (((cfg1.win 0).blk t).view.emb (ix2 p k)) = V c main_v0 (ix2 n k)
  refine congrArg (V c main_v0) (funext fun a => Fin.ext ?_)
  match a with
  | ⟨0, _⟩ => show win1_0.index t (0 : Fin 2) * 512 + 1 * p.val = n.val; omega
  | ⟨1, _⟩ => show win1_0.index t (1 : Fin 2) * 1024 + 1 * k.val = k.val; omega

/-- Row q of the slab loaded at the point (I, J) from the resident copy is row 1024 J + q of the array. -/
theorem slab_at (t : Fin cfg1.N) (q k : Fin 1024) (n' : Fin 8192)
    (hn : n'.val = 1024 * (grid1.coords t 1).val + q.val) :
    View.ld (blockAt V c 1 t) (rSlab (grid1.coords t)) (ix2 q k) = V c main_v0 (ix2 n' k) := by
  obtain ⟨-, -, e10, e11, -, -⟩ := idx_facts t
  have o0 : k1_off1 (grid1.coords t) 0 = 1024 * (grid1.coords t 1).val := congrFun (k1_off1_eq (grid1.coords t)) 0
  have o1 : k1_off1 (grid1.coords t) 1 = 0 := congrFun (k1_off1_eq (grid1.coords t)) 1
  show V c main_v0 (((cfg1.win 1).blk t).view.emb ((rSlab (grid1.coords t)).idx (ix2 q k))) = V c main_v0 (ix2 n' k)
  refine congrArg (V c main_v0) (funext fun a => Fin.ext ?_)
  match a with
  | ⟨0, _⟩ =>
    show win1_1.index t (0 : Fin 2) * 8192 + 1 * (k1_off1 (grid1.coords t) 0 + 1 * q.val) = n'.val
    omega
  | ⟨1, _⟩ =>
    show win1_1.index t (1 : Fin 2) * 1024 + 1 * (k1_off1 (grid1.coords t) 1 + 1 * k.val) = k.val
    omega

/-! ## What each point writes back -/

/-- What the point t writes back is its block of the Gram matrix of the array as the region finds it. -/
theorem flushed_eq (t : Fin cfg1.N) :
    (dat (F := Ideal) V c).flushed 2 t = ((cfg1.win 2).blk t).view.read (Elt Ideal) (gramOf (V c main_v0)) := by
  show (cfg1.win 2).cut (grid1.coords t) ((dat V c).after 2 t) = _
  rw [after_out]
  unfold gramBlock
  rw [View.canon_unit_zero zero_offsets]
  simp only [View.ld_unit_zero (S := S512x1024) zero_offsets]
  funext j
  have hp : (j 0).val < 512 := (j 0).isLt
  have hq : (j 1).val < 1024 := (j 1).isLt
  have hI : (grid1.coords t 0).val < 16 := (grid1.coords t 0).isLt
  have hJ : (grid1.coords t 1).val < 8 := (grid1.coords t 1).isLt
  obtain ⟨-, -, -, -, e20, e21⟩ := idx_facts t
  have ej : ((cfg1.win 2).xinj (grid1.coords t) j : S512x1024.Idx)
      = ix2 (⟨(j 0).val, hp⟩ : Fin 512) (⟨(j 1).val, hq⟩ : Fin 1024) :=
    funext fun a => Fin.ext (by match a with | ⟨0, _⟩ => rfl | ⟨1, _⟩ => rfl)
  have eo : (((cfg1.win 2).blk t).view.emb j : S8192x8192.Idx)
      = ix2 (⟨512 * (grid1.coords t 0).val + (j 0).val, by omega⟩ : Fin 8192)
          (⟨1024 * (grid1.coords t 1).val + (j 1).val, by omega⟩ : Fin 8192) :=
    funext fun a => Fin.ext (by
      match a with
      | ⟨0, _⟩ =>
        show win1_2.index t (0 : Fin 2) * 512 + 1 * (j 0).val = 512 * (grid1.coords t 0).val + (j 0).val
        omega
      | ⟨1, _⟩ =>
        show win1_2.index t (1 : Fin 2) * 1024 + 1 * (j 1).val = 1024 * (grid1.coords t 1).val + (j 1).val
        omega)
  refine (congrArg (k1_pay1 (F := Ideal) _ _) ej).trans ?_
  refine Eq.trans ?_ (congrArg (gramOf (V c main_v0)) eo).symm
  exact prod_entry (V c main_v0) _ _ _ _ _ _ (fun k => tile_at V c t _ k _ rfl) (fun k => slab_at V c t _ k _ rfl)

/-! ## The blocks tile the result -/

/-- An index of the result is in the block of point t iff each coordinate is in the block's range on its axis. -/
theorem mem_blk (t : Fin cfg1.N) (i : S8192x8192.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v1).slice (win1_2.rect t)).set ↔ _
  rw [View.set_slice_whole, Rect.mem_set_unit]
  exact Iff.rfl

/-- Row n, column n' of the result lies in the block of the point of coordinates (n / 512, n' / 1024), which
    writes its block back. -/
theorem cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto ⟨(i 0).val / 512, by omega⟩ ⟨(i 1).val / 1024, by omega⟩
  have q0 : win1_2.index t (0 : Fin 2) = (i 0).val / 512 := congrFun ht 0
  have q1 : win1_2.index t (1 : Fin 2) = (i 1).val / 1024 := congrFun ht 1
  refine ⟨t, flush1_2 t, ?_⟩
  rw [mem_blk]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 1024 ≤ (i 1).val ∧ (i 1).val < win1_2.index t (1 : Fin 2) * 1024 + 1024
    omega

/-! ## The result array -/

/-- After the last point the result array holds the Gram matrix of the array the kernel reads. -/
theorem gramArr_eq : (dat (F := Ideal) V c).arrAt 2 cfg1.N = gramOf (V c main_v0) :=
  (dat (F := Ideal) V c).arrAt_eq_of_cover 2 (gramOf (V c main_v0)) (fun t _ => flushed_eq V c t) cover

end Cert.KernelIdeal.GramValue

end
-- ==== Proof.KernelValue.lean ====
/-
  What the two kernels leave in the result array, as a function of the arguments: the Gram matrix of the halved
  feature matrix.

  The second region's result is the Gram matrix of whatever its input array holds when it is entered; that array
  is the first region's output, which holds the halved feature matrix of the arguments as launched. Composed:
  entry (n, n') of the result is Σ_k (feat[n, k] · ½) · (feat[n', k] · ½).
-/
import proofs.«107795_j24223615549685_2_alg».proof.Proof.TwoRegionsIdeal
import proofs.«107795_j24223615549685_2_alg».proof.Proof.FeatValue
import proofs.«107795_j24223615549685_2_alg».proof.Proof.GramValue

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem

/-- The intermediate array, as the second region finds it, is the halved feature matrix of the arguments. -/
theorem intermediate_eq (m : (ℓ : Loc nD τ sig) → Buf (Elt Ideal) ℓ) (c : Dev nD) :
    TwoRegions.V1 (F := Ideal) m c main_v0
      = FeatValue.halvedFeatures (m ((c.tc : Thread nD τ).loc main_arg0)) (m ((c.tc : Thread nD τ).loc main_arg1)) :=
  (TwoRegions.W1_arr (F := Ideal) m c 2).trans (FeatValue.featArr_eq (TwoRegions.V0 (F := Ideal) m) c)

/-- The result array ends at the Gram matrix of the halved features. -/
theorem result_eq (m : (ℓ : Loc nD τ sig) → Buf (Elt Ideal) ℓ) (c : Dev nD) :
    TwoRegions.gramArr (F := Ideal) m c
      = Cert.Attentive.gramHalved (m ((c.tc : Thread nD τ).loc main_arg0)) (m ((c.tc : Thread nD τ).loc main_arg1)) := by
  unfold TwoRegions.gramArr
  rw [GramValue.gramArr_eq (TwoRegions.V1 (F := Ideal) m) c, intermediate_eq m c]
  funext i
  obtain ⟨n, n', rfl⟩ : ∃ (n : Fin 8192) (n' : Fin 8192), i = ix2 n n' := ⟨i 0, i 1, eq_ix2 i⟩
  rw [GramValue.gramOf_apply]
  rfl

end Cert.KernelIdeal.KernelValue

end
-- ==== Proof.lean ====
/-
  The claim: a two-kernel program and a plain array program compute the same [8192, 8192] matrix from
  x : [8192, 256] and a : [4, 256], as extended reals, and each program runs to the end, faults nowhere and leaves
  its arguments unchanged.

  The mathematics (Proof/Spec.lean). Head h scales row n of x entrywise by row h of a and normalises the scaled row
  by rsqrt of its squared length clamped below by ε; the four heads' normalised rows side by side are row n of a
  feature matrix of 1024 columns; the result is the Gram matrix of the feature rows divided by 4. The reference
  divides at the end. The kernels halve every feature first (the first kernel writes the halved feature matrix, one
  block of 1024 rows per grid point, four column bands per block), then the second kernel forms the Gram matrix of the
  halved features tile by tile (rows [512 i, …) against rows [1024 j, …) of the same matrix, contracted over the
  1024 columns into a zero accumulator).

  The pieces: the reference's run read index by index is the quartered Gram matrix (Proof/RefValue.lean, over the
  generated run and its read-at-an-index lemmas); the two kernels' regions, their launch in sequence and what each
  leaves in its output array (Proof/NormRegion*.lean, Proof/GramRegion*.lean, Proof/TwoRegions*.lean: once at the
  word level for the frame, once on the extended reals for the frame and the value); the blocks written back are
  the blocks of the halved feature matrix and of its Gram matrix (Proof/FeatValue.lean, Proof/GramValue.lean, over the
  bodies' arithmetic read at an index, Proof/Payloads.lean; joined in Proof/KernelValue.lean); and the law joining the
  two sides, which needs no finiteness (Proof/Law.lean). No rewrite was applied by the idealization, so that
  conjunct is trivial.
-/
import proofs.«107795_j24223615549685_2_alg».proof.Defs
import proofs.«107795_j24223615549685_2_alg».proof.Proof.Gen.Kernel
import proofs.«107795_j24223615549685_2_alg».proof.Proof.Gen.KernelIdeal
import proofs.«107795_j24223615549685_2_alg».proof.Proof.Gen.ReferenceIdeal
import proofs.«107795_j24223615549685_2_alg».proof.Proof.Gen.ReferenceIdeal.Read
import proofs.«107795_j24223615549685_2_alg».proof.Proof.Gen.Pre_finite_inputs
import proofs.«107795_j24223615549685_2_alg».proof.Proof.TwoRegionsBits
import proofs.«107795_j24223615549685_2_alg».proof.Proof.TwoRegionsIdeal
import proofs.«107795_j24223615549685_2_alg».proof.Proof.Law
import proofs.«107795_j24223615549685_2_alg».proof.Proof.RefValue
import proofs.«107795_j24223615549685_2_alg».proof.Proof.KernelValue

noncomputable section

open Idealize.ShloMosaic Idealize.ShloMosaic.TcCoe Idealize.SL.Sem

namespace Cert.Proof

/-- The word-level program runs to the end, faults nowhere and leaves its arguments as launched: its two regions
    in sequence, each kernel body run at every grid point. -/
theorem frame_kernel : Cert.frame_Kernel (hKernel := Cert.Kernel.Gen.facts) (hPre_finite_inputs := Cert.Pre_finite_inputs.Gen.facts) :=
  fun m ρ _ => Cert.Kernel.TwoRegions.frame (F := Bits) m ρ

/-- The same of the idealized program, read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.TwoRegions.frame (F := Ideal) m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernel ends with the Gram matrix of the HALVED features and the reference with the Gram
    matrix of the features divided by four; the two are one function of the arguments, with no finiteness needed: a
    product of two halved factors is a quarter of the product, and a nonnegative finite scalar distributes over a
    finite sum of extended reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.TwoRegions.gramArr (F := Ideal) m c, Cert.KernelIdeal.TwoRegions.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact ((Cert.ReferenceIdeal.Read.val_main_v18_eq _ _).trans (Cert.ReferenceIdeal.RefValue.ref_is_gramQuartered _ _)).trans
    ((Cert.Attentive.gramHalved_eq_gramQuartered _ _).symm.trans (Cert.KernelIdeal.KernelValue.result_eq m c).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
